-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2048x512 : Shape := ⟨2, ![2048, 512]⟩
abbrev S2048 : Shape := ⟨1, ![2048]⟩
abbrev S512x2048 : Shape := ⟨2, ![512, 2048]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_
  bcast_S_S512x2048 : S_.BroadcastsInDim S512x2048 (![] : Fin 0 → Fin S512x2048.rank)
  reducesTo_S512x2048_S_d0_1 : S512x2048.ReducesTo [0, 1] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S512x2048 .f32) (main_arg8 : FVec F S512x2048 .f32) (main_arg9 : FVec F S2048 .f32) (main_arg10 : FVec F S2048 .f32) (main_v33 : IVec S_ 1) : IVec S_ 1 :=
  let main_v34 : FVec F S512x2048 .f32 := Host.absf main_arg7
  let main_cst_12 : FVec F S_ .f32 := constant S_ .f32 0x7F800000#32
  let main_v35 : FVec F S512x2048 .f32 := broadcastInDim S512x2048 ![] bcast_S_S512x2048 main_cst_12
  let main_v36 : IVec S512x2048 1 := cmpf .olt main_v34 main_v35
  let main_c_13 : IVec S_ 1 := constantI S_ 1 1#1
  let main_v37 : IVec S_ 1 := (fun x v => Host.reduce IntOp.andi x v reducesTo_S512x2048_S_d0_1 h_S_) main_v36 main_c_13
  let main_v38 : IVec S_ 1 := andi main_v33 main_v37
  let main_v39 : FVec F S512x2048 .f32 := Host.absf main_arg8
  let main_cst_14 : FVec F S_ .f32 := constant S_ .f32 0x7F800000#32
  let main_v40 : FVec F S512x2048 .f32 := broadcastInDim S512x2048 ![] bcast_S_S512x2048 main_cst_14
  let main_v41 : IVec S512x2048 1 := cmpf .olt main_v39 main_v40
  let main_c_15 : IVec S_ 1 := constantI S_ 1 1#1
  let main_v42 : IVec S_ 1 := (fun x v => Host.reduce IntOp.andi x v reducesTo_S512x2048_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048x512 .f32) (main_arg5 : FVec F S2048 .f32) (main_arg6 : FVec F S2048 .f32) (main_arg7 : FVec F S512x2048 .f32) (main_arg8 : FVec F S512x2048 .f32) (main_arg9 : FVec F S2048 .f32) (main_arg10 : FVec F S2048 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S2048x512 .f32 := Host.absf main_arg4
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x512 .f32) (main_arg1 : FVec F S8192x512 .f32) (main_arg2 : FVec F S8192x512 .f32) (main_arg3 : FVec F S2048x512 .f32) (main_arg4 : FVec F S2048x512 .f32) (main_arg5 : FVec F S2048 .f32) (main_arg6 : FVec F S2048 .f32) (main_arg7 : FVec F S512x2048 .f32) (main_arg8 : FVec F S512x2048 .f32) (main_arg9 : FVec F S2048 .f32) (main_arg10 : FVec F S2048 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S2048x512 .f32 := Host.absf main_arg3
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg4 main_arg5 main_arg6 main_arg7 main_arg8 main_arg9 main_arg10 main_v13 main_v16
-- ==== Kernel.lean ====
abbrev S8192x512 : Shape := ⟨2, ![8192, 512]⟩
abbrev S2048x512 : Shape := ⟨2, ![2048, 512]⟩
abbrev S2048 : Shape := ⟨1, ![2048]⟩
abbrev S512x2048 : Shape := ⟨2, ![512, 2048]⟩
abbrev S_ : Shape := ⟨0, ![]⟩
abbrev S1024x2048 : Shape := ⟨2, ![1024, 2048]⟩
abbrev S1x2048 : Shape := ⟨2, ![1, 2048]⟩
abbrev S512x512 : Shape := ⟨2, ![512, 512]⟩
abbrev S512x1024 : Shape := ⟨2, ![512, 1024]⟩

abbrev nBuf : Space → Nat
  | .hbm => 47
  | .vmem => 12
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S2048x512, .f32⟩
  | .hbm, ⟨4, _⟩ => ⟨S2048x512, .f32⟩
  | .hbm, ⟨5, _⟩ => ⟨S2048, .f32⟩
  | .hbm, ⟨6, _⟩ => ⟨S2048, .f32⟩
  | .hbm, ⟨7, _⟩ => ⟨S512x2048, .f32⟩
  | .hbm, ⟨8, _⟩ => ⟨S512x2048, .f32⟩
  | .hbm, ⟨9, _⟩ => ⟨S2048, .f32⟩
  | .hbm, ⟨10, _⟩ => ⟨S2048, .f32⟩
  | .hbm, ⟨11, _⟩ => ⟨S512x2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S512x2048, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S512x2048, .f32⟩
  | .hbm, ⟨25, _⟩ => ⟨S512x2048, .f32⟩
  | .hbm, ⟨26, _⟩ => ⟨S512x2048, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S2048, .f32⟩
  | .hbm, ⟨34, _⟩ => ⟨S2048, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048, .f32⟩
  | .hbm, ⟨40, _⟩ => ⟨S2048, .f32⟩
  | .hbm, ⟨41, _⟩ => ⟨S2048, .f32⟩
  | .hbm, ⟨42, _⟩ => ⟨S1024x2048, .f32⟩
  | .hbm, ⟨43, _⟩ => ⟨S1024x2048, .bf16⟩
  | .hbm, ⟨44, _⟩ => ⟨S1x2048, .f32⟩
  | .hbm, ⟨45, _⟩ => ⟨S8192x512, .f32⟩
  | .hbm, ⟨46, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1024x2048, .bf16⟩
  | .local _ .vmem, ⟨7, _⟩ => ⟨S1x2048, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_cst_4 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_5 : Ref sig .tc := ⟨.hbm, 35, rfl⟩
abbrev main_v18 : Ref sig .tc := ⟨.hbm, 36, rfl⟩
abbrev main_cst_6 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26_0 : Ref sig .tc := ⟨.hbm, 45, rfl⟩
abbrev main_v26_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S2048x512_S512x2048_1_0 : S2048x512.Transposes [1, 0] S512x2048
  reducesTo_S2048x512_S_d0_1 : S2048x512.ReducesTo [0, 1] S_
  h_S_ : 0 < S_.numel
  bcast_S_S512x2048 : S_.BroadcastsInDim S512x2048 (![] : Fin 0 → Fin S512x2048.rank)
  reducesTo_S2048_S_d0 : S2048.ReducesTo [0] S_
  bcast_S_S2048 : S_.BroadcastsInDim S2048 (![] : Fin 0 → Fin S2048.rank)
  concatenates_S512x2048_S512x2048_S1024x2048_d0 : Shape.Concatenates [S512x2048, S512x2048] S1024x2048 0
  bitsLt_bf16_f32 : FTy.bits .bf16 < FTy.bits .f32
  shapeCasts_S2048_S1x2048 : S2048.ShapeCasts S1x2048
  inb_S512x512_S512x512_0_0 : ∀ a, (![0, 0] : Fin 2 → Nat) a + S512x512.size a ≤ S512x512.size a
  h_S512x512 : 0 < S512x512.numel
  concatenates_S512x512_S512x512_S512x1024_d1 : Shape.Concatenates [S512x512, S512x512] S512x1024 1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x1024 : S512x2048.Slices ![0, 0] S512x1024
  slices_S512x2048_o0_1024_S512x512 : S512x2048.Slices ![0, 1024] S512x512
  slices_S512x2048_o0_1536_S512x512 : S512x2048.Slices ![0, 1536] S512x512
  slices_S512x1024_o0_0_S512x512 : S512x1024.Slices ![0, 0] S512x512
  slices_S512x1024_o0_512_S512x512 : S512x1024.Slices ![0, 512] S512x512
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .f32 = 32 ∨ (Rect.block (s := S8192x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .f32 = 32 ∨ (Rect.block (s := S8192x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x512.size a
  hwx0_2 : ∀ i : grid0.Coords, EltTy.bits .f32 = 32 ∨ (Rect.block (s := S8192x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S8192x512.size a
  hwx0_5 : ∀ i : grid0.Coords, EltTy.bits .f32 = 32 ∨ (Rect.block (s := S8192x512) S512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S8192x512.size a
  hwx0_6 : ∀ i : grid0.Coords, EltTy.bits .f32 = 32 ∨ (Rect.block (s := S8192x512) S512x512.size (cc0_transform_6 i) (hinb0_6 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26_0) S512x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v26_1) S512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x512 : Shape := ⟨2, ![8192, 512]⟩
abbrev S2048x512 : Shape := ⟨2, ![2048, 512]⟩
abbrev S2048 : Shape := ⟨1, ![2048]⟩
abbrev S512x2048 : Shape := ⟨2, ![512, 2048]⟩
abbrev S_ : Shape := ⟨0, ![]⟩
abbrev S8192x2048 : Shape := ⟨2, ![8192, 2048]⟩
abbrev S1x2048 : Shape := ⟨2, ![1, 2048]⟩

abbrev nBuf : Space → Nat
  | .hbm => 243
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S2048x512, .f32⟩
  | 4 => ⟨S2048x512, .f32⟩
  | 5 => ⟨S2048, .f32⟩
  | 6 => ⟨S2048, .f32⟩
  | 7 => ⟨S512x2048, .f32⟩
  | 8 => ⟨S512x2048, .f32⟩
  | 9 => ⟨S2048, .f32⟩
  | 10 => ⟨S2048, .f32⟩
  | 11 => ⟨S512x2048, .f32⟩
  | 12 => ⟨S_, .f32⟩
  | 13 => ⟨S_, .f32⟩
  | 14 => ⟨S_, .f32⟩
  | 15 => ⟨S_, .f32⟩
  | 16 => ⟨S512x2048, .f32⟩
  | 17 => ⟨S512x2048, .f32⟩
  | 18 => ⟨S512x2048, .f32⟩
  | 19 => ⟨S512x2048, .f32⟩
  | 20 => ⟨S_, .f32⟩
  | 21 => ⟨S_, .f32⟩
  | 22 => ⟨S_, .f32⟩
  | 23 => ⟨S_, .f32⟩
  | 24 => ⟨S512x2048, .f32⟩
  | 25 => ⟨S512x2048, .f32⟩
  | 26 => ⟨S512x2048, .f32⟩
  | 27 => ⟨S_, .f32⟩
  | 28 => ⟨S_, .f32⟩
  | 29 => ⟨S_, .f32⟩
  | 30 => ⟨S_, .f32⟩
  | 31 => ⟨S2048, .f32⟩
  | 32 => ⟨S2048, .f32⟩
  | 33 => ⟨S2048, .f32⟩
  | 34 => ⟨S_, .f32⟩
  | 35 => ⟨S_, .f32⟩
  | 36 => ⟨S_, .f32⟩
  | 37 => ⟨S_, .f32⟩
  | 38 => ⟨S2048, .f32⟩
  | 39 => ⟨S2048, .f32⟩
  | 40 => ⟨S2048, .f32⟩
  | 41 => ⟨S8192x2048, .f32⟩
  | 42 => ⟨S1x2048, .f32⟩
  | 43 => ⟨S8192x2048, .f32⟩
  | 44 => ⟨S8192x2048, .f32⟩
  | 45 => ⟨S8192x2048, .f32⟩
  | 46 => ⟨S8192x2048, .f32⟩
  | 47 => ⟨S1x2048, .f32⟩
  | 48 => ⟨S8192x2048, .f32⟩
  | 49 => ⟨S8192x2048, .f32⟩
  | 50 => ⟨S8192x512, .f32⟩
  | 51 => ⟨S8192x512, .f32⟩
  | 52 => ⟨S8192x512, .f32⟩
  | 53 => ⟨S8192x512, .f32⟩
  | 54 => ⟨S8192x512, .f32⟩
  | 55 => ⟨S8192x512, .f32⟩
  | 56 => ⟨S_, .f32⟩
  | 57 => ⟨S8192x512, .f32⟩
  | 58 => ⟨S8192x512, .f32⟩
  | 59 => ⟨S_, .f32⟩
  | 60 => ⟨S8192x512, .f32⟩
  | 61 => ⟨S8192x512, .f32⟩
  | 62 => ⟨S_, .f32⟩
  | 63 => ⟨S_, .f32⟩
  | 64 => ⟨S_, .f32⟩
  | 65 => ⟨S8192x512, .f32⟩
  | 66 => ⟨S8192x512, .f32⟩
  | 67 => ⟨S_, .f32⟩
  | 68 => ⟨S8192x512, .f32⟩
  | 69 => ⟨S8192x512, .f32⟩
  | 70 => ⟨S_, .f32⟩
  | 71 => ⟨S8192x512, .f32⟩
  | 72 => ⟨S8192x512, .f32⟩
  | 73 => ⟨S8192x512, .f32⟩
  | 74 => ⟨S_, .f32⟩
  | 75 => ⟨S8192x512, .f32⟩
  | 76 => ⟨S8192x512, .f32⟩
  | 77 => ⟨S8192x512, .f32⟩
  | 78 => ⟨S8192x512, .f32⟩
  | 79 => ⟨S8192x512, .f32⟩
  | 80 => ⟨S8192x512, .f32⟩
  | 81 => ⟨S_, .f32⟩
  | 82 => ⟨S8192x512, .f32⟩
  | 83 => ⟨S8192x512, .f32⟩
  | 84 => ⟨S_, .f32⟩
  | 85 => ⟨S8192x512, .f32⟩
  | 86 => ⟨S8192x512, .f32⟩
  | 87 => ⟨S_, .f32⟩
  | 88 => ⟨S_, .f32⟩
  | 89 => ⟨S_, .f32⟩
  | 90 => ⟨S8192x512, .f32⟩
  | 91 => ⟨S8192x512, .f32⟩
  | 92 => ⟨S_, .f32⟩
  | 93 => ⟨S8192x512, .f32⟩
  | 94 => ⟨S8192x512, .f32⟩
  | 95 => ⟨S_, .f32⟩
  | 96 => ⟨S8192x512, .f32⟩
  | 97 => ⟨S8192x512, .f32⟩
  | 98 => ⟨S8192x512, .f32⟩
  | 99 => ⟨S_, .f32⟩
  | 100 => ⟨S8192x512, .f32⟩
  | 101 => ⟨S8192x512, .f32⟩
  | 102 => ⟨S8192x512, .f32⟩
  | 103 => ⟨S8192x512, .f32⟩
  | 104 => ⟨S8192x512, .f32⟩
  | 105 => ⟨S_, .f32⟩
  | 106 => ⟨S_, .f32⟩
  | 107 => ⟨S_, .f32⟩
  | 108 => ⟨S8192x512, .f32⟩
  | 109 => ⟨S8192x512, .f32⟩
  | 110 => ⟨S_, .f32⟩
  | 111 => ⟨S8192x512, .f32⟩
  | 112 => ⟨S8192x512, .f32⟩
  | 113 => ⟨S_, .f32⟩
  | 114 => ⟨S8192x512, .f32⟩
  | 115 => ⟨S8192x512, .f32⟩
  | 116 => ⟨S8192x512, .f32⟩
  | 117 => ⟨S_, .f32⟩
  | 118 => ⟨S8192x512, .f32⟩
  | 119 => ⟨S8192x512, .f32⟩
  | 120 => ⟨S8192x512, .f32⟩
  | 121 => ⟨S8192x512, .f32⟩
  | 122 => ⟨S8192x512, .f32⟩
  | 123 => ⟨S8192x512, .f32⟩
  | 124 => ⟨S_, .f32⟩
  | 125 => ⟨S8192x512, .f32⟩
  | 126 => ⟨S8192x512, .f32⟩
  | 127 => ⟨S_, .f32⟩
  | _ => ⟨S8192x512, .f32⟩

abbrev hbmTy0_1 (i : Nat) : BufTy := match i % 128 with
  | 0 => ⟨S8192x512, .f32⟩
  | 1 => ⟨S8192x512, .f32⟩
  | 2 => ⟨S_, .f32⟩
  | 3 => ⟨S_, .f32⟩
  | 4 => ⟨S_, .f32⟩
  | 5 => ⟨S8192x512, .f32⟩
  | 6 => ⟨S8192x512, .f32⟩
  | 7 => ⟨S_, .f32⟩
  | 8 => ⟨S8192x512, .f32⟩
  | 9 => ⟨S8192x512, .f32⟩
  | 10 => ⟨S_, .f32⟩
  | 11 => ⟨S8192x512, .f32⟩
  | 12 => ⟨S8192x512, .f32⟩
  | 13 => ⟨S8192x512, .f32⟩
  | 14 => ⟨S_, .f32⟩
  | 15 => ⟨S8192x512, .f32⟩
  | 16 => ⟨S8192x512, .f32⟩
  | 17 => ⟨S8192x512, .f32⟩
  | 18 => ⟨S8192x512, .f32⟩
  | 19 => ⟨S8192x512, .f32⟩
  | 20 => ⟨S_, .f32⟩
  | 21 => ⟨S_, .f32⟩
  | 22 => ⟨S_, .f32⟩
  | 23 => ⟨S8192x512, .f32⟩
  | 24 => ⟨S8192x512, .f32⟩
  | 25 => ⟨S_, .f32⟩
  | 26 => ⟨S8192x512, .f32⟩
  | 27 => ⟨S8192x512, .f32⟩
  | 28 => ⟨S_, .f32⟩
  | 29 => ⟨S8192x512, .f32⟩
  | 30 => ⟨S8192x512, .f32⟩
  | 31 => ⟨S8192x512, .f32⟩
  | 32 => ⟨S_, .f32⟩
  | 33 => ⟨S8192x512, .f32⟩
  | 34 => ⟨S8192x512, .f32⟩
  | 35 => ⟨S8192x512, .f32⟩
  | 36 => ⟨S8192x512, .f32⟩
  | 37 => ⟨S8192x512, .f32⟩
  | 38 => ⟨S_, .f32⟩
  | 39 => ⟨S_, .f32⟩
  | 40 => ⟨S_, .f32⟩
  | 41 => ⟨S8192x512, .f32⟩
  | 42 => ⟨S8192x512, .f32⟩
  | 43 => ⟨S_, .f32⟩
  | 44 => ⟨S8192x512, .f32⟩
  | 45 => ⟨S8192x512, .f32⟩
  | 46 => ⟨S_, .f32⟩
  | 47 => ⟨S8192x512, .f32⟩
  | 48 => ⟨S8192x512, .f32⟩
  | 49 => ⟨S8192x512, .f32⟩
  | 50 => ⟨S_, .f32⟩
  | 51 => ⟨S8192x512, .f32⟩
  | 52 => ⟨S8192x512, .f32⟩
  | 53 => ⟨S8192x512, .f32⟩
  | 54 => ⟨S8192x512, .f32⟩
  | 55 => ⟨S8192x512, .f32⟩
  | 56 => ⟨S_, .f32⟩
  | 57 => ⟨S8192x512, .f32⟩
  | 58 => ⟨S8192x512, .f32⟩
  | 59 => ⟨S_, .f32⟩
  | 60 => ⟨S_, .f32⟩
  | 61 => ⟨S_, .f32⟩
  | 62 => ⟨S8192x512, .f32⟩
  | 63 => ⟨S8192x512, .f32⟩
  | 64 => ⟨S_, .f32⟩
  | 65 => ⟨S8192x512, .f32⟩
  | 66 => ⟨S8192x512, .f32⟩
  | 67 => ⟨S_, .f32⟩
  | 68 => ⟨S8192x512, .f32⟩
  | 69 => ⟨S8192x512, .f32⟩
  | 70 => ⟨S8192x512, .f32⟩
  | 71 => ⟨S_, .f32⟩
  | 72 => ⟨S8192x512, .f32⟩
  | 73 => ⟨S8192x512, .f32⟩
  | 74 => ⟨S8192x512, .f32⟩
  | 75 => ⟨S8192x512, .f32⟩
  | 76 => ⟨S_, .f32⟩
  | 77 => ⟨S8192x512, .f32⟩
  | 78 => ⟨S8192x512, .f32⟩
  | 79 => ⟨S8192x512, .f32⟩
  | 80 => ⟨S_, .f32⟩
  | 81 => ⟨S_, .f32⟩
  | 82 => ⟨S_, .f32⟩
  | 83 => ⟨S8192x512, .f32⟩
  | 84 => ⟨S8192x512, .f32⟩
  | 85 => ⟨S_, .f32⟩
  | 86 => ⟨S8192x512, .f32⟩
  | 87 => ⟨S8192x512, .f32⟩
  | 88 => ⟨S_, .f32⟩
  | 89 => ⟨S8192x512, .f32⟩
  | 90 => ⟨S8192x512, .f32⟩
  | 91 => ⟨S8192x512, .f32⟩
  | 92 => ⟨S_, .f32⟩
  | 93 => ⟨S8192x512, .f32⟩
  | 94 => ⟨S8192x512, .f32⟩
  | 95 => ⟨S8192x512, .f32⟩
  | 96 => ⟨S8192x512, .f32⟩
  | 97 => ⟨S8192x512, .f32⟩
  | 98 => ⟨S_, .f32⟩
  | 99 => ⟨S_, .f32⟩
  | 100 => ⟨S_, .f32⟩
  | 101 => ⟨S8192x512, .f32⟩
  | 102 => ⟨S8192x512, .f32⟩
  | 103 => ⟨S_, .f32⟩
  | 104 => ⟨S8192x512, .f32⟩
  | 105 => ⟨S8192x512, .f32⟩
  | 106 => ⟨S_, .f32⟩
  | 107 => ⟨S8192x512, .f32⟩
  | 108 => ⟨S8192x512, .f32⟩
  | 109 => ⟨S8192x512, .f32⟩
  | 110 => ⟨S_, .f32⟩
  | 111 => ⟨S8192x512, .f32⟩
  | 112 => ⟨S8192x512, .f32⟩
  | 113 => ⟨S8192x512, .f32⟩
  | 114 => ⟨S8192x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_cst_4 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_5 : Ref sig .tc := ⟨.hbm, 34, rfl⟩
abbrev main_v17 : Ref sig .tc := ⟨.hbm, 35, rfl⟩
abbrev main_cst_6 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_cst_10 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_v41 : Ref sig .tc := ⟨.hbm, 69, rfl⟩
abbrev main_cst_11 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_12 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_13 : Ref sig .tc := ⟨.hbm, 81, rfl⟩
abbrev main_v51 : Ref sig .tc := ⟨.hbm, 82, rfl⟩
abbrev main_v52 : Ref sig .tc := ⟨.hbm, 83, rfl⟩
abbrev main_cst_14 : Ref sig .tc := ⟨.hbm, 84, rfl⟩
abbrev main_v53 : Ref sig .tc := ⟨.hbm, 85, rfl⟩
abbrev main_v54 : Ref sig .tc := ⟨.hbm, 86, rfl⟩
abbrev main_cst_15 : Ref sig .tc := ⟨.hbm, 87, rfl⟩
abbrev main_cst_16 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_v55 : Ref sig .tc := ⟨.hbm, 94, rfl⟩
abbrev main_cst_17 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_18 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_19 : Ref sig .tc := ⟨.hbm, 105, rfl⟩
abbrev main_cst_20 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_call4_v3 : Ref sig .tc := ⟨.hbm, 110, rfl⟩
abbrev main_call4_v4 : Ref sig .tc := ⟨.hbm, 111, rfl⟩
abbrev main_v64 : Ref sig .tc := ⟨.hbm, 112, rfl⟩
abbrev main_cst_21 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_cst_22 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_cst_23 : Ref sig .tc := ⟨.hbm, 124, rfl⟩
abbrev main_v74 : Ref sig .tc := ⟨.hbm, 125, rfl⟩
abbrev main_v75 : Ref sig .tc := ⟨.hbm, 126, rfl⟩
abbrev main_cst_24 : Ref sig .tc := ⟨.hbm, 127, rfl⟩
abbrev main_v76 : Ref sig .tc := ⟨.hbm, 128, rfl⟩
abbrev main_v77 : Ref sig .tc := ⟨.hbm, 129, rfl⟩
abbrev main_cst_25 : Ref sig .tc := ⟨.hbm, 130, rfl⟩
abbrev main_cst_26 : Ref sig .tc := ⟨.hbm, 131, rfl⟩
abbrev main_call6_v0 : Ref sig .tc := ⟨.hbm, 132, rfl⟩
abbrev main_call6_v1 : Ref sig .tc := ⟨.hbm, 133, rfl⟩
abbrev main_call6_v2 : Ref sig .tc := ⟨.hbm, 134, rfl⟩
abbrev main_call6_v3 : Ref sig .tc := ⟨.hbm, 135, rfl⟩
abbrev main_call6_v4 : Ref sig .tc := ⟨.hbm, 136, rfl⟩
abbrev main_v78 : Ref sig .tc := ⟨.hbm, 137, rfl⟩
abbrev main_cst_27 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_cst_28 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_cst_29 : Ref sig .tc := ⟨.hbm, 148, rfl⟩
abbrev main_cst_30 : Ref sig .tc := ⟨.hbm, 149, rfl⟩
abbrev main_call8_v0 : Ref sig .tc := ⟨.hbm, 150, rfl⟩
abbrev main_call8_v1 : Ref sig .tc := ⟨.hbm, 151, rfl⟩
abbrev main_call8_v2 : Ref sig .tc := ⟨.hbm, 152, rfl⟩
abbrev main_call8_v3 : Ref sig .tc := ⟨.hbm, 153, rfl⟩
abbrev main_call8_v4 : Ref sig .tc := ⟨.hbm, 154, rfl⟩
abbrev main_v87 : Ref sig .tc := ⟨.hbm, 155, rfl⟩
abbrev main_cst_31 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_cst_32 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_cst_33 : Ref sig .tc := ⟨.hbm, 166, rfl⟩
abbrev main_cst_34 : Ref sig .tc := ⟨.hbm, 167, rfl⟩
abbrev main_call10_v0 : Ref sig .tc := ⟨.hbm, 168, rfl⟩
abbrev main_call10_v1 : Ref sig .tc := ⟨.hbm, 169, rfl⟩
abbrev main_call10_v2 : Ref sig .tc := ⟨.hbm, 170, rfl⟩
abbrev main_call10_v3 : Ref sig .tc := ⟨.hbm, 171, rfl⟩
abbrev main_call10_v4 : Ref sig .tc := ⟨.hbm, 172, rfl⟩
abbrev main_v96 : Ref sig .tc := ⟨.hbm, 173, rfl⟩
abbrev main_cst_35 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_cst_36 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_cst_37 : Ref sig .tc := ⟨.hbm, 184, rfl⟩
abbrev main_v105 : Ref sig .tc := ⟨.hbm, 185, rfl⟩
abbrev main_v106 : Ref sig .tc := ⟨.hbm, 186, rfl⟩
abbrev main_cst_38 : Ref sig .tc := ⟨.hbm, 187, rfl⟩
abbrev main_cst_39 : Ref sig .tc := ⟨.hbm, 188, rfl⟩
abbrev main_call12_v0 : Ref sig .tc := ⟨.hbm, 189, rfl⟩
abbrev main_call12_v1 : Ref sig .tc := ⟨.hbm, 190, rfl⟩
abbrev main_call12_v2 : Ref sig .tc := ⟨.hbm, 191, rfl⟩
abbrev main_call12_v3 : Ref sig .tc := ⟨.hbm, 192, rfl⟩
abbrev main_call12_v4 : Ref sig .tc := ⟨.hbm, 193, rfl⟩
abbrev main_v107 : Ref sig .tc := ⟨.hbm, 194, rfl⟩
abbrev main_cst_40 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_cst_41 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_cst_42 : Ref sig .tc := ⟨.hbm, 204, rfl⟩
abbrev main_v115 : Ref sig .tc := ⟨.hbm, 205, rfl⟩
abbrev main_v116 : Ref sig .tc := ⟨.hbm, 206, rfl⟩
abbrev main_v117 : Ref sig .tc := ⟨.hbm, 207, rfl⟩
abbrev main_cst_43 : Ref sig .tc := ⟨.hbm, 208, rfl⟩
abbrev main_cst_44 : Ref sig .tc := ⟨.hbm, 209, rfl⟩
abbrev main_call14_v0 : Ref sig .tc := ⟨.hbm, 210, rfl⟩
abbrev main_call14_v1 : Ref sig .tc := ⟨.hbm, 211, rfl⟩
abbrev main_call14_v2 : Ref sig .tc := ⟨.hbm, 212, rfl⟩
abbrev main_call14_v3 : Ref sig .tc := ⟨.hbm, 213, rfl⟩
abbrev main_call14_v4 : Ref sig .tc := ⟨.hbm, 214, rfl⟩
abbrev main_v118 : Ref sig .tc := ⟨.hbm, 215, rfl⟩
abbrev main_cst_45 : Ref sig .tc := ⟨.hbm, 216, rfl⟩
abbrev main_v119 : Ref sig .tc := ⟨.hbm, 217, rfl⟩
abbrev main_v120 : Ref sig .tc := ⟨.hbm, 218, rfl⟩
abbrev main_v121 : Ref sig .tc := ⟨.hbm, 219, rfl⟩
abbrev main_cst_46 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩
abbrev main_v125 : Ref sig .tc := ⟨.hbm, 224, rfl⟩
abbrev main_v126 : Ref sig .tc := ⟨.hbm, 225, rfl⟩
abbrev main_cst_47 : Ref sig .tc := ⟨.hbm, 226, rfl⟩
abbrev main_cst_48 : Ref sig .tc := ⟨.hbm, 227, rfl⟩
abbrev main_call16_v0 : Ref sig .tc := ⟨.hbm, 228, rfl⟩
abbrev main_call16_v1 : Ref sig .tc := ⟨.hbm, 229, rfl⟩
abbrev main_call16_v2 : Ref sig .tc := ⟨.hbm, 230, rfl⟩
abbrev main_call16_v3 : Ref sig .tc := ⟨.hbm, 231, rfl⟩
abbrev main_call16_v4 : Ref sig .tc := ⟨.hbm, 232, rfl⟩
abbrev main_v127 : Ref sig .tc := ⟨.hbm, 233, rfl⟩
abbrev main_cst_49 : Ref sig .tc := ⟨.hbm, 234, rfl⟩
abbrev main_v128 : Ref sig .tc := ⟨.hbm, 235, rfl⟩
abbrev main_v129 : Ref sig .tc := ⟨.hbm, 236, rfl⟩
abbrev main_v130 : Ref sig .tc := ⟨.hbm, 237, rfl⟩
abbrev main_cst_50 : Ref sig .tc := ⟨.hbm, 238, rfl⟩
abbrev main_v131 : Ref sig .tc := ⟨.hbm, 239, rfl⟩
abbrev main_v132 : Ref sig .tc := ⟨.hbm, 240, rfl⟩
abbrev main_v133 : Ref sig .tc := ⟨.hbm, 241, rfl⟩
abbrev main_v134 : Ref sig .tc := ⟨.hbm, 242, rfl⟩

abbrev nD : Nat := 1
abbrev τ : Topo := Topo.v7x

variable {F : FTy → Type} [FloatOps F]

class Facts₀ : Prop where
  transposes_S2048x512_S512x2048_1_0 : S2048x512.Transposes [1, 0] S512x2048
  reducesTo_S2048x512_S_d0_1 : S2048x512.ReducesTo [0, 1] S_
  h_S_ : 0 < S_.numel
  bcast_S_S512x2048 : S_.BroadcastsInDim S512x2048 (![] : Fin 0 → Fin S512x2048.rank)
  reducesTo_S2048_S_d0 : S2048.ReducesTo [0] S_
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  slices_S8192x2048_S8192x512_0_0 : S8192x2048.Slices ![0, 0] S8192x512
  slices_S8192x2048_S8192x512_0_512 : S8192x2048.Slices ![0, 512] S8192x512
  slices_S8192x2048_S8192x512_0_1024 : S8192x2048.Slices ![0, 1024] S8192x512
  slices_S8192x2048_S8192x512_0_1536 : S8192x2048.Slices ![0, 1536] S8192x512
  bcast_S_S8192x512 : S_.BroadcastsInDim S8192x512 (![] : Fin 0 → Fin S8192x512.rank)
  dot_S8192x512_S512x2048_S8192x2048_1_0_0_1_n_n_wf : DotDims.WF S8192x512 S512x2048 S8192x2048 [1] [0] [0] [1] [] []

variable [Facts₀]

def dot_S8192x512_S512x2048_S8192x2048_1_0_0_1_n_n : DotDims S8192x512 S512x2048 S8192x2048 where
  lhsContracting := [1]
  rhsContracting := [0]
  lhsNonContracting := [0]
  rhsNonContracting := [1]
  lhsBatch := []
  rhsBatch := []
  wf := dot_S8192x512_S512x2048_S8192x2048_1_0_0_1_n_n_wf

class Facts : Prop extends Facts₀ where

variable [Facts]
-- ==== Proof.Spec.lean ====
/-
  The mathematics of one step of the quantised LSTM cell, entry by entry, on the extended reals.

  Every activation passes through a straight-through quantiser: the value is clipped to a range, scaled,
  rounded half-to-even, scaled back, and the result is written as  x + (q - x).  Two grids occur: the
  unsigned one on [0, 1] with 256 steps (after a sigmoid) and the signed one on [-127/128, 127/128] with
  128 steps (after a tanh, a product of gates, or the averaged cell state).

  From the four pre-activations of an entry (input, forget, cell and output gate) and the old cell state,
      cy = qS( ( qS( qU(σ f) · c ) + qS( qU(σ i) · qS(tanh g) ) ) / 2 )
      hy = qS( qU(σ o) · qS( tanh( cy · 2 ) ) ).

  The pre-activations are  x·W_ih + b_ih + h·W_hh + b_hh.  One program computes them as ONE product of the
  rows [x | h] (1024 long) with the stacked weights [W_ih ; W_hh] plus the biases added up beforehand, the
  other as two products of 512-long rows with the biases added in between.  The two agree because a sum
  over 1024 indices splits into the sums over its two halves, and because addition of extended reals is
  commutative and associative (no cancellation and no distributivity is used, so infinities are harmless).
-/
import Idealize.ShloMosaic.PureOps.Ideal
import Idealize.ShloMosaic.PureOps.Ideal.Laws
import Idealize.ShloMosaic.Lib.IdealHost
import Idealize.ShloMosaic.Lib.ValueIdx

noncomputable section

namespace Cert.LstmSpec

open Idealize.ShloMosaic

/-- The straight-through quantiser on the range [lo, hi] with scale s: x + (round(clip(x)·s)/s − x). -/
def quant (lo hi s x : EReal) : EReal :=
  x + (Ideal.div (Ideal.liftRound Ideal.roundHalfEven (min hi (max lo x) * s)) s - x)

/-- The unsigned 8-bit grid: range [0, 1], scale 256. -/
def quantU (x : EReal) : EReal :=
  quant (Ideal.ofBits .f32 0x00000000#32) (Ideal.ofBits .f32 0x3F800000#32) (Ideal.ofBits .f32 0x43800000#32) x

/-- The signed 8-bit grid: range [-127/128, 127/128], scale 128. -/
def quantS (x : EReal) : EReal :=
  quant (Ideal.ofBits .f32 0xBF7E0000#32) (Ideal.ofBits .f32 0x3F7E0000#32) (Ideal.ofBits .f32 0x43000000#32) x

/-- A gate: the quantised sigmoid of its pre-activation. -/
def gate (g : EReal) : EReal := quantU (Ideal.logistic g)

/-- The candidate cell value: the quantised tanh of its pre-activation. -/
def cand (g : EReal) : EReal := quantS (Ideal.tanh g)

/-- The averaged cell state before its last quantisation. -/
def cellMix (gi gf gc cx : EReal) : EReal :=
  Ideal.div (quantS (gate gf * cx) + quantS (gate gi * cand gc)) (Ideal.ofBits .f32 0x40000000#32)

/-- The new cell state. -/
def cellOut (gi gf gc cx : EReal) : EReal := quantS (cellMix gi gf gc cx)

/-- The new hidden state, from the output gate's pre-activation and the new cell state. -/
def hidOut (go cy : EReal) : EReal :=
  quantS (gate go * quantS (Ideal.tanh (cy * Ideal.ofBits .f32 0x40000000#32)))

/-- The host spells the sigmoid out as 1 / (1 + e^(-x)) with the constant one written as a bit pattern. -/
theorem logistic_spelt (x : EReal) :
    Ideal.div (Ideal.ofBits .f32 0x3F800000#32) (Ideal.ofBits .f32 0x3F800000#32 + Ideal.exp (-x)) = Ideal.logistic x := by
  rw [Ideal.ofBits_one_f32]; rfl

/-- A sum over 1024 indices is the sum over the first 512 plus the sum over the last 512. -/
theorem sum_halves {M : Type} [AddCommMonoid M] (f : Fin 1024 → M) :
    ∑ k : Fin 1024, f k
      = ∑ k : Fin 512, f ⟨k.val, by have := k.isLt; omega⟩ + ∑ k : Fin 512, f ⟨512 + k.val, by have := k.isLt; omega⟩ :=
  Fin.sum_univ_add (a := 512) (b := 512) f

/-- The pre-activations agree: one long product plus the pre-summed biases, against two products with
    the biases added in between.  Only commutativity and associativity of + are used. -/
theorem gates_assoc (A B s b n : EReal) :
    (A + B) + ((s + b) + n) = ((A + s) + B) + (b + n) := by
  abel

/-! ## The two results as whole arrays

  `g` is the array of pre-activations, 8192 rows of 2048 columns; its four quarters of 512 columns are the
  input, forget, cell and output gate.  `cx` is the old cell state. -/

/-- Column `c` of quarter `off / 512` of row `r`: the entry (r, off + c) of the pre-activations. -/
abbrev quarter (off : Nat) (h : off + 512 ≤ 2048) (i : (⟨2, ![8192, 512]⟩ : Shape).Idx) : (⟨2, ![8192, 2048]⟩ : Shape).Idx :=
  ValueIdx.ix2 (i 0) ⟨off + (i 1).val, by have := ValueIdx.idx2_lt1 i; omega⟩

/-- Column `c` of the first quarter of row `r`: the entry (r, c). -/
abbrev quarter0 (i : (⟨2, ![8192, 512]⟩ : Shape).Idx) : (⟨2, ![8192, 2048]⟩ : Shape).Idx :=
  ValueIdx.ix2 (i 0) ⟨(i 1).val, by have := ValueIdx.idx2_lt1 i; omega⟩

/-- The new cell state, entry by entry. -/
def cellArr (g : (⟨2, ![8192, 2048]⟩ : Shape).Idx → EReal) (cx : (⟨2, ![8192, 512]⟩ : Shape).Idx → EReal) :
    (⟨2, ![8192, 512]⟩ : Shape).Idx → EReal := fun i =>
  cellOut (g (quarter0 i)) (g (quarter 512 (by norm_num) i)) (g (quarter 1024 (by norm_num) i)) (cx i)

/-- The new hidden state, entry by entry. -/
def hidArr (g : (⟨2, ![8192, 2048]⟩ : Shape).Idx → EReal) (cx : (⟨2, ![8192, 512]⟩ : Shape).Idx → EReal) :
    (⟨2, ![8192, 512]⟩ : Shape).Idx → EReal := fun i =>
  hidOut (g (quarter 1536 (by norm_num) i)) (cellArr g cx i)

end Cert.LstmSpec

end
-- ==== Proof.KernelPoint.lean ====
/-
  The kernel body's arithmetic after the matrix product, entry by entry.

  After the product the body is pointwise: every stored entry (p, c) of a 512 x 512 block is a function of
  the four pre-activations (p, c), (p, 512 + c), (p, 1024 + c), (p, 1536 + c) of the block's 512 x 2048
  pre-activation array and of the old cell state at (p, c).  The sigmoid and its quantiser are applied to
  the first two quarters at once (a 512 x 1024 slab) and the two gates are cut out afterwards; entry by
  entry that is the same as treating each quarter on its own.
-/
import proofs.«180121_j26714696581322_2_alg».proof.Proof.Gen.KernelIdeal.Skeleton
import proofs.«180121_j26714696581322_2_alg».proof.Proof.Spec
import Idealize.ShloMosaic.Lib.Pipeline.Value
import Idealize.ShloMosaic.Lib.ValueLayout

noncomputable section

namespace Cert.LstmKernel

open Cert.KernelIdeal Cert.KernelIdeal.Gen Cert.LstmSpec Idealize.ShloMosaic Idealize.ShloMosaic.ValueIdx

section Pointwise

variable (v27 v28 v40 v41 v52 v53 : FVec Ideal S512x512 .f32)

/-- The unsigned quantiser applied to a whole block. -/
theorem outGate_eq : k0_pay9 (F := Ideal) v41 = fun y => quantU (v41 y) := rfl

/-- The averaged cell state of a block, before its last quantisation. -/
theorem mix_eq : k0_pay10 (F := Ideal) v27 v28 v40 v53
    = fun y => Ideal.div (quantS (v28 y * v53 y) + quantS (v27 y * v40 y)) (Ideal.ofBits .f32 0x40000000#32) := rfl

/-- The clipped averaged cell state together with the rest of the quantiser is the signed quantiser. -/
theorem cell_eq : k0_pay1 (F := Ideal) (k0_pay10 v27 v28 v40 v53) (k0_pay11 v27 v28 v40 v53)
    = fun y => quantS (k0_pay10 (F := Ideal) v27 v28 v40 v53 y) := rfl

/-- The hidden state of a block from the output gate and the new cell state. -/
theorem hid_eq : k0_pay2 (F := Ideal) v52 (k0_pay10 v27 v28 v40 v53) (k0_pay11 v27 v28 v40 v53)
    = fun y => quantS (v52 y * quantS (Ideal.tanh
        (k0_pay1 (F := Ideal) (k0_pay10 v27 v28 v40 v53) (k0_pay11 v27 v28 v40 v53) y * Ideal.ofBits .f32 0x40000000#32))) := rfl

end Pointwise

variable (P0 P1 P2 : Vec Ideal S512x512 .f32) (P3 : Vec Ideal S1024x2048 .bf16) (P4 : Vec Ideal S1x2048 .f32)

/-- The slab of the first two quarters: the quantised sigmoid of the pre-activation in the same column. -/
theorem slab_at (p : Fin 512) (c : Fin 1024) :
    k0_pay4 (F := Ideal) P0 P1 P3 P4 (ix2 p c)
      = gate (k0_pay3 (F := Ideal) P0 P1 P3 P4 (ix2 p ⟨c.val, by have := c.isLt; omega⟩)) := by
  show gate (extractStridedSlice S512x1024 ![0, 0] (k0_pay3 (F := Ideal) P0 P1 P3 P4) slices_S512x2048_o0_0_S512x1024 (ix2 p c)) = _
  exact congrArg gate (slice2_axis1_apply 0 (k0_pay3 (F := Ideal) P0 P1 P3 P4) slices_S512x2048_o0_0_S512x1024 p c (⟨c.val, by have := c.isLt; omega⟩ : Fin 2048) (Nat.zero_add _).symm)

/-- The input gate: the first quarter. -/
theorem inGate_at (p c : Fin 512) :
    k0_pay5 (F := Ideal) P0 P1 P3 P4 (ix2 p c)
      = gate (k0_pay3 (F := Ideal) P0 P1 P3 P4 (ix2 p ⟨c.val, by have := c.isLt; omega⟩)) := by
  show extractStridedSlice S512x512 ![0, 0] (k0_pay4 (F := Ideal) P0 P1 P3 P4) slices_S512x1024_o0_0_S512x512 (ix2 p c) = _
  exact (slice2_axis1_apply 0 (k0_pay4 (F := Ideal) P0 P1 P3 P4) slices_S512x1024_o0_0_S512x512 p c (⟨c.val, by have := c.isLt; omega⟩ : Fin 1024) (Nat.zero_add _).symm).trans
    (slab_at P0 P1 P3 P4 p _)

/-- The forget gate: the second quarter. -/
theorem fgGate_at (p c : Fin 512) :
    k0_pay6 (F := Ideal) P0 P1 P3 P4 (ix2 p c)
      = gate (k0_pay3 (F := Ideal) P0 P1 P3 P4 (ix2 p ⟨512 + c.val, by have := c.isLt; omega⟩)) := by
  show extractStridedSlice S512x512 ![0, 512] (k0_pay4 (F := Ideal) P0 P1 P3 P4) slices_S512x1024_o0_512_S512x512 (ix2 p c) = _
  exact (slice2_axis1_apply 512 (k0_pay4 (F := Ideal) P0 P1 P3 P4) slices_S512x1024_o0_512_S512x512 p c (⟨512 + c.val, by have := c.isLt; omega⟩ : Fin 1024) rfl).trans
    (slab_at P0 P1 P3 P4 p _)

/-- The candidate cell value: the quantised tanh of the third quarter. -/
theorem cand_at (p c : Fin 512) :
    k0_pay7 (F := Ideal) P0 P1 P3 P4 (ix2 p c)
      = cand (k0_pay3 (F := Ideal) P0 P1 P3 P4 (ix2 p ⟨1024 + c.val, by have := c.isLt; omega⟩)) := by
  show cand (extractStridedSlice S512x512 ![0, 1024] (k0_pay3 (F := Ideal) P0 P1 P3 P4) slices_S512x2048_o0_1024_S512x512 (ix2 p c)) = _
  exact congrArg cand (slice2_axis1_apply 1024 (k0_pay3 (F := Ideal) P0 P1 P3 P4) slices_S512x2048_o0_1024_S512x512 p c (⟨1024 + c.val, by have := c.isLt; omega⟩ : Fin 2048) rfl)

/-- The sigmoid of the fourth quarter, before its quantiser. -/
theorem outSig_at (p c : Fin 512) :
    k0_pay8 (F := Ideal) P0 P1 P3 P4 (ix2 p c)
      = Ideal.logistic (k0_pay3 (F := Ideal) P0 P1 P3 P4 (ix2 p ⟨1536 + c.val, by have := c.isLt; omega⟩)) := by
  show Ideal.logistic (extractStridedSlice S512x512 ![0, 1536] (k0_pay3 (F := Ideal) P0 P1 P3 P4) slices_S512x2048_o0_1536_S512x512 (ix2 p c)) = _
  exact congrArg Ideal.logistic (slice2_axis1_apply 1536 (k0_pay3 (F := Ideal) P0 P1 P3 P4) slices_S512x2048_o0_1536_S512x512 p c (⟨1536 + c.val, by have := c.isLt; omega⟩ : Fin 2048) rfl)

/-- The entry the body stores into the new cell state. -/
theorem cell_block_at (p c : Fin 512) :
    k0_pay1 (F := Ideal) (k0_pay10 (k0_pay5 P0 P1 P3 P4) (k0_pay6 P0 P1 P3 P4) (k0_pay7 P0 P1 P3 P4) P2)
        (k0_pay11 (k0_pay5 P0 P1 P3 P4) (k0_pay6 P0 P1 P3 P4) (k0_pay7 P0 P1 P3 P4) P2) (ix2 p c)
      = cellOut (k0_pay3 (F := Ideal) P0 P1 P3 P4 (ix2 p ⟨c.val, by have := c.isLt; omega⟩))
          (k0_pay3 (F := Ideal) P0 P1 P3 P4 (ix2 p ⟨512 + c.val, by have := c.isLt; omega⟩))
          (k0_pay3 (F := Ideal) P0 P1 P3 P4 (ix2 p ⟨1024 + c.val, by have := c.isLt; omega⟩)) (P2 (ix2 p c)) := by
  rw [cell_eq, mix_eq]
  show quantS (Ideal.div (quantS (k0_pay6 (F := Ideal) P0 P1 P3 P4 (ix2 p c) * P2 (ix2 p c))
      + quantS (k0_pay5 (F := Ideal) P0 P1 P3 P4 (ix2 p c) * k0_pay7 (F := Ideal) P0 P1 P3 P4 (ix2 p c))) (Ideal.ofBits .f32 0x40000000#32)) = _
  rw [inGate_at, fgGate_at, cand_at]
  rfl

/-- The entry the body stores into the new hidden state. -/
theorem hid_block_at (p c : Fin 512) :
    k0_pay2 (F := Ideal) (k0_pay9 (k0_pay8 P0 P1 P3 P4))
        (k0_pay10 (k0_pay5 P0 P1 P3 P4) (k0_pay6 P0 P1 P3 P4) (k0_pay7 P0 P1 P3 P4) P2)
        (k0_pay11 (k0_pay5 P0 P1 P3 P4) (k0_pay6 P0 P1 P3 P4) (k0_pay7 P0 P1 P3 P4) P2) (ix2 p c)
      = hidOut (k0_pay3 (F := Ideal) P0 P1 P3 P4 (ix2 p ⟨1536 + c.val, by have := c.isLt; omega⟩))
          (cellOut (k0_pay3 (F := Ideal) P0 P1 P3 P4 (ix2 p ⟨c.val, by have := c.isLt; omega⟩))
            (k0_pay3 (F := Ideal) P0 P1 P3 P4 (ix2 p ⟨512 + c.val, by have := c.isLt; omega⟩))
            (k0_pay3 (F := Ideal) P0 P1 P3 P4 (ix2 p ⟨1024 + c.val, by have := c.isLt; omega⟩)) (P2 (ix2 p c))) := by
  rw [hid_eq]
  show quantS (k0_pay9 (F := Ideal) (k0_pay8 P0 P1 P3 P4) (ix2 p c) * quantS (Ideal.tanh
      (k0_pay1 (F := Ideal) (k0_pay10 (k0_pay5 P0 P1 P3 P4) (k0_pay6 P0 P1 P3 P4) (k0_pay7 P0 P1 P3 P4) P2)
        (k0_pay11 (k0_pay5 P0 P1 P3 P4) (k0_pay6 P0 P1 P3 P4) (k0_pay7 P0 P1 P3 P4) P2) (ix2 p c) * Ideal.ofBits .f32 0x40000000#32))) = _
  rw [cell_block_at, outGate_eq]
  show quantS (quantU (k0_pay8 (F := Ideal) P0 P1 P3 P4 (ix2 p c)) * _) = _
  rw [outSig_at]
  rfl

end Cert.LstmKernel

end
-- ==== Proof.KernelDot.lean ====
/-
  The pre-activations of a block: entry (p, c) of  [x | h] · W + b.

  The rows of x and h (512 long each) are rounded to bf16 — the identity on the extended reals — and laid
  side by side into a row 1024 long; the product with the 1024 x 2048 weight block is, entry by entry, a sum
  over 1024 indices, which splits into the sum over the x half (weight rows 0 … 511) and the sum over the h
  half (weight rows 512 … 1023).  The bias is one row, repeated down the 512 rows of the block.
-/
import proofs.«180121_j26714696581322_2_alg».proof.Proof.Gen.KernelIdeal.Skeleton
import proofs.«180121_j26714696581322_2_alg».proof.Proof.Spec
import Idealize.ShloMosaic.Lib.Pipeline.Value
import Idealize.ShloMosaic.Lib.ValueLayout
import Idealize.ShloMosaic.PureOps.Ideal.Laws

noncomputable section

namespace Cert.LstmKernel

open Cert.KernelIdeal Cert.KernelIdeal.Gen Cert.LstmSpec Idealize.ShloMosaic Idealize.ShloMosaic.ValueIdx

/-! The product's operand indices at output entry `i` and contraction index `q`: row of the left operand and
    column of the right one from `i`, the shared coordinate from `q`. -/

theorem lhs_row (i : S512x2048.Idx) (q : dot_S512x1024_S1024x2048_S512x2048_1_0_0_1_n_n.contr.Idx) : (dot_S512x1024_S1024x2048_S512x2048_1_0_0_1_n_n.lhsIdx i q 0).val = (i 0).val := by
  unfold DotDims.lhsIdx
  rw [dif_neg (show ¬(0 : Fin S512x1024.rank) ∈ dot_S512x1024_S1024x2048_S512x2048_1_0_0_1_n_n.lhsBatch by decide), dif_pos (show (0 : Fin S512x1024.rank) ∈ dot_S512x1024_S1024x2048_S512x2048_1_0_0_1_n_n.lhsNonContracting by decide)]
  rfl

theorem lhs_col (i : S512x2048.Idx) (q : dot_S512x1024_S1024x2048_S512x2048_1_0_0_1_n_n.contr.Idx) : (dot_S512x1024_S1024x2048_S512x2048_1_0_0_1_n_n.lhsIdx i q 1).val = (q ⟨0, by decide⟩).val :=
  dot_S512x1024_S1024x2048_S512x2048_1_0_0_1_n_n.lhsIdx_val_of_single rfl i q

theorem rhs_row (i : S512x2048.Idx) (q : dot_S512x1024_S1024x2048_S512x2048_1_0_0_1_n_n.contr.Idx) : (dot_S512x1024_S1024x2048_S512x2048_1_0_0_1_n_n.rhsIdx i q 0).val = (q ⟨0, by decide⟩).val :=
  dot_S512x1024_S1024x2048_S512x2048_1_0_0_1_n_n.rhsIdx_val_of_single rfl i q

theorem rhs_col (i : S512x2048.Idx) (q : dot_S512x1024_S1024x2048_S512x2048_1_0_0_1_n_n.contr.Idx) : (dot_S512x1024_S1024x2048_S512x2048_1_0_0_1_n_n.rhsIdx i q 1).val = (i 1).val := by
  unfold DotDims.rhsIdx
  rw [dif_neg (show ¬(1 : Fin S1024x2048.rank) ∈ dot_S512x1024_S1024x2048_S512x2048_1_0_0_1_n_n.rhsBatch by decide), dif_pos (show (1 : Fin S1024x2048.rank) ∈ dot_S512x1024_S1024x2048_S512x2048_1_0_0_1_n_n.rhsNonContracting by decide)]
  rfl

/-- An entry of the block's product into a zero accumulator: the sum over the 1024 shared indices. -/
theorem product_at (l : FVec Ideal S512x1024 .bf16) (r : FVec Ideal S1024x2048 .bf16) (p : Fin 512) (c : Fin 2048) :
    matmul (F := Ideal) dot_S512x1024_S1024x2048_S512x2048_1_0_0_1_n_n none l r (constant S512x2048 .f32 0x00000000#32) (ix2 p c)
      = ∑ k : Fin 1024, l (ix2 p k) * r (ix2 k c) := by
  refine (Ideal.matmul_constant_zero_apply dot_S512x1024_S1024x2048_S512x2048_1_0_0_1_n_n none l r (ix2 p c)).trans ?_
  rw [← Equiv.sum_comp (ValueIdx.contrEquiv1 dot_S512x1024_S1024x2048_S512x2048_1_0_0_1_n_n 1024 rfl rfl).symm]
  refine Finset.sum_congr rfl fun k _ => ?_
  have hk := ValueIdx.contrEquiv1_symm_val dot_S512x1024_S1024x2048_S512x2048_1_0_0_1_n_n 1024 rfl rfl k
  have el : dot_S512x1024_S1024x2048_S512x2048_1_0_0_1_n_n.lhsIdx (ix2 p c) ((ValueIdx.contrEquiv1 dot_S512x1024_S1024x2048_S512x2048_1_0_0_1_n_n 1024 rfl rfl).symm k) = ix2 p k := funext fun a => Fin.ext (by
    match a with
    | ⟨0, _⟩ => exact lhs_row _ _
    | ⟨1, _⟩ => exact (lhs_col _ _).trans hk)
  have er : dot_S512x1024_S1024x2048_S512x2048_1_0_0_1_n_n.rhsIdx (ix2 p c) ((ValueIdx.contrEquiv1 dot_S512x1024_S1024x2048_S512x2048_1_0_0_1_n_n 1024 rfl rfl).symm k) = ix2 k c := funext fun a => Fin.ext (by
    match a with
    | ⟨0, _⟩ => exact (rhs_row _ _).trans hk
    | ⟨1, _⟩ => exact rhs_col _ _)
  rw [el, er]

/-- The left half of the row [x | h] is x's row. -/
theorem cat_left (a b : FVec Ideal S512x512 .bf16) (p : Fin 512) (k : Fin 512) :
    concatenate S512x1024 1 [⟨S512x512, a⟩, ⟨S512x512, b⟩] concatenates_S512x512_S512x512_S512x1024_d1
        (ix2 p (⟨k.val, by have := k.isLt; omega⟩ : Fin 1024)) = a (ix2 p k) :=
  concatenate_pair_apply_left (1 : Fin S512x1024.rank) a b concatenates_S512x512_S512x512_S512x1024_d1 _ rfl (ix2 p k) (fun d => match d with
    | ⟨0, _⟩ => rfl
    | ⟨1, _⟩ => rfl)

/-- The right half of the row [x | h] is h's row. -/
theorem cat_right (a b : FVec Ideal S512x512 .bf16) (p : Fin 512) (k : Fin 512) :
    concatenate S512x1024 1 [⟨S512x512, a⟩, ⟨S512x512, b⟩] concatenates_S512x512_S512x512_S512x1024_d1
        (ix2 p (⟨512 + k.val, by have := k.isLt; omega⟩ : Fin 1024)) = b (ix2 p k) :=
  concatenate_pair_apply_right (1 : Fin S512x1024.rank) a b concatenates_S512x512_S512x512_S512x1024_d1 _ rfl rfl (ix2 p k) (fun d hd => match d with
    | ⟨0, _⟩ => rfl
    | ⟨1, _⟩ => absurd rfl hd)
    (by show k.val + 512 = 512 + k.val; omega)

/-- THE PRE-ACTIVATION of a block at (p, c): x's row times the upper half of the weight column, plus h's row
    times the lower half, plus the bias row's entry. -/
theorem preact_at (x0 x1 : Vec Ideal S512x512 .f32) (w : Vec Ideal S1024x2048 .bf16) (b : Vec Ideal S1x2048 .f32)
    (p : Fin 512) (c : Fin 2048) :
    k0_pay3 (F := Ideal) x0 x1 w b (ix2 p c)
      = (∑ k : Fin 512, x0 (ix2 p k) * w (ix2 (⟨k.val, by have := k.isLt; omega⟩ : Fin 1024) c)
          + ∑ k : Fin 512, x1 (ix2 p k) * w (ix2 (⟨512 + k.val, by have := k.isLt; omega⟩ : Fin 1024) c))
        + b (ix2 (0 : Fin 1) c) := by
  have hb : broadcastTo S512x2048 (shapeCast S1x2048 b shapeCasts_S1x2048_S1x2048) broadcasts_S1x2048_S512x2048 (ix2 p c)
      = b (ix2 (0 : Fin 1) c) := by
    rw [shapeCast_self]
    exact broadcastTo_1b_ab_apply b broadcasts_S1x2048_S512x2048 p c
  have hm : matmul (F := Ideal) (φ₁ := .bf16) (φ₂ := .bf16) dot_S512x1024_S1024x2048_S512x2048_1_0_0_1_n_n none
        (concatenate S512x1024 1 [⟨S512x512, truncf (F := Ideal) .bf16 x0 bitsLt_bf16_f32⟩, ⟨S512x512, truncf (F := Ideal) .bf16 x1 bitsLt_bf16_f32⟩] concatenates_S512x512_S512x512_S512x1024_d1)
        (shapeCast S1024x2048 w shapeCasts_S1024x2048_S1024x2048) (constant S512x2048 .f32 0x00000000#32) (ix2 p c)
      = ∑ k : Fin 512, x0 (ix2 p k) * w (ix2 (⟨k.val, by have := k.isLt; omega⟩ : Fin 1024) c)
          + ∑ k : Fin 512, x1 (ix2 p k) * w (ix2 (⟨512 + k.val, by have := k.isLt; omega⟩ : Fin 1024) c) := by
    rw [shapeCast_self]
    refine (product_at _ w p c).trans ?_
    rw [sum_halves]
    refine congrArg₂ (· + ·) (Finset.sum_congr rfl fun k _ => ?_) (Finset.sum_congr rfl fun k _ => ?_)
    · rw [cat_left]; rfl
    · rw [cat_right]; rfl
  exact congrArg₂ (· + ·) hm hb

end Cert.LstmKernel

end
-- ==== Proof.KernelHost.lean ====
/-
  What the weight window and the bias window hold when the kernel is launched.

  Before the launch the host builds, from the argument arrays,
    * the noisy weights  W_ih = weight_ihᵀ + noise_ih · (max weight_ih · 0.1)  and W_hh likewise, stacks
      them into one 1024 x 2048 array (W_ih on top) and rounds it to bf16 — the identity on the extended
      reals —;
    * the bias  ((bias_ih + noise_bias_ih · (max bias_ih · 0.1)) + bias_hh) + noise_bias_hh · (max bias_hh · 0.1),
      as one row of 2048.
  The maxima are never opened: each noisy array is carried as one function of its two arguments.
-/
import proofs.«180121_j26714696581322_2_alg».proof.Proof.Gen.KernelIdeal.Frame
import Idealize.ShloMosaic.Lib.StableHlo.Run
import Idealize.ShloMosaic.Lib.Pipeline.Value
import Idealize.ShloMosaic.Lib.ValueLayout

noncomputable section

namespace Cert.LstmKernel

open Cert.KernelIdeal Cert.KernelIdeal.Gen Idealize.ShloMosaic Idealize.ShloMosaic.TcCoe Idealize.SL.Sem
open Idealize.ShloMosaic.StableHlo Idealize.ShloMosaic.ValueIdx

/-- A weight matrix transposed, plus its noise scaled by a tenth of the matrix's largest entry. -/
def noisyWeight (wt : (⟨S2048x512, .f32⟩ : BufTy).Contents (Elt Ideal)) (nz : (⟨S512x2048, .f32⟩ : BufTy).Contents (Elt Ideal)) :
    (⟨S512x2048, .f32⟩ : BufTy).Contents (Elt Ideal) :=
  addf (F := Ideal) (transpose S512x2048 [1, 0] wt transposes_S2048x512_S512x2048_1_0)
    (mulf (F := Ideal) nz (broadcastInDim S512x2048 ![] bcast_S_S512x2048
      (mulf (F := Ideal) (Host.reduce FloatOps.maximumf wt (constant (F := Ideal) S_ .f32 0xFF800000#32) reducesTo_S2048x512_S_d0_1 h_S_) (constant (F := Ideal) S_ .f32 0x3DCCCCCD#32))))

/-- A bias vector's noise scaled by a tenth of the vector's largest entry. -/
def biasNoise (bv nz : (⟨S2048, .f32⟩ : BufTy).Contents (Elt Ideal)) : (⟨S2048, .f32⟩ : BufTy).Contents (Elt Ideal) :=
  mulf (F := Ideal) nz (broadcastInDim S2048 ![] bcast_S_S2048
    (mulf (F := Ideal) (Host.reduce FloatOps.maximumf bv (constant (F := Ideal) S_ .f32 0xFF800000#32) reducesTo_S2048_S_d0 h_S_) (constant (F := Ideal) S_ .f32 0x3DCCCCCD#32)))

/-- The bias the kernel is handed: both biases and both noise terms, added from left to right. -/
def biasSum (b1 n1 b2 n2 : (⟨S2048, .f32⟩ : BufTy).Contents (Elt Ideal)) : (⟨S2048, .f32⟩ : BufTy).Contents (Elt Ideal) :=
  addf (F := Ideal) (s := S2048) (φ := .f32) (addf (F := Ideal) (s := S2048) (φ := .f32) (addf (F := Ideal) (s := S2048) (φ := .f32) b1 (biasNoise b1 n1)) b2) (biasNoise b2 n2)

/-- Entry by entry the summed bias is ((b1 + noise1) + b2) + noise2. -/
theorem biasSum_apply (b1 n1 b2 n2 : (⟨S2048, .f32⟩ : BufTy).Contents (Elt Ideal)) (i : S2048.Idx) :
    biasSum b1 n1 b2 n2 i = ((b1 i + biasNoise b1 n1 i) + b2 i) + biasNoise b2 n2 i := rfl

variable (m : (ℓ : Loc nD τ sig) → Buf (Elt Ideal) ℓ)

set_option maxHeartbeats 16000000 in
/-- The weight window's array at launch: the two noisy weights stacked. -/
theorem weights_entry (c : Dev nD) :
    (V m c main_v24 : S1024x2048.Idx → EReal)
      = truncf (F := Ideal) .bf16 (concatenate S1024x2048 0
          [⟨S512x2048, noisyWeight (m ((c : Thread nD τ).loc main_arg3)) (m ((c : Thread nD τ).loc main_arg7))⟩, ⟨S512x2048, noisyWeight (m ((c : Thread nD τ).loc main_arg4)) (m ((c : Thread nD τ).loc main_arg8))⟩]
          concatenates_S512x2048_S512x2048_S1024x2048_d0) bitsLt_bf16_f32 := by
  dsimp only [V, hostOps0]
  after_results
  rfl

set_option maxHeartbeats 16000000 in
/-- The bias window's array at launch: the summed bias as one row. -/
theorem bias_entry (c : Dev nD) :
    (V m c main_v25 : S1x2048.Idx → EReal)
      = shapeCast S1x2048 (biasSum (m ((c : Thread nD τ).loc main_arg5)) (m ((c : Thread nD τ).loc main_arg9)) (m ((c : Thread nD τ).loc main_arg6)) (m ((c : Thread nD τ).loc main_arg10)))
          shapeCasts_S2048_S1x2048 := by
  dsimp only [V, hostOps0]
  after_results_simp <;> rfl

/-- The upper half of the weight window is W_ih. -/
theorem weights_upper (c : Dev nD) (k : Fin 512) (j : Fin 2048) :
    V m c main_v24 (ix2 (⟨k.val, by have := k.isLt; omega⟩ : Fin 1024) j) = noisyWeight (m ((c : Thread nD τ).loc main_arg3)) (m ((c : Thread nD τ).loc main_arg7)) (ix2 k j) := by
  refine (congrFun (weights_entry m c) _).trans ?_
  show concatenate S1024x2048 0 [⟨S512x2048, noisyWeight (m ((c : Thread nD τ).loc main_arg3)) (m ((c : Thread nD τ).loc main_arg7))⟩, ⟨S512x2048, noisyWeight (m ((c : Thread nD τ).loc main_arg4)) (m ((c : Thread nD τ).loc main_arg8))⟩]
      concatenates_S512x2048_S512x2048_S1024x2048_d0 (ix2 (⟨k.val, by have := k.isLt; omega⟩ : Fin 1024) j) = _
  exact concatenate_pair_apply_left (0 : Fin S1024x2048.rank) _ _ concatenates_S512x2048_S512x2048_S1024x2048_d0 _ rfl (ix2 k j) (fun d => match d with
    | ⟨0, _⟩ => rfl
    | ⟨1, _⟩ => rfl)

/-- The lower half of the weight window is W_hh. -/
theorem weights_lower (c : Dev nD) (k : Fin 512) (j : Fin 2048) :
    V m c main_v24 (ix2 (⟨512 + k.val, by have := k.isLt; omega⟩ : Fin 1024) j) = noisyWeight (m ((c : Thread nD τ).loc main_arg4)) (m ((c : Thread nD τ).loc main_arg8)) (ix2 k j) := by
  refine (congrFun (weights_entry m c) _).trans ?_
  show concatenate S1024x2048 0 [⟨S512x2048, noisyWeight (m ((c : Thread nD τ).loc main_arg3)) (m ((c : Thread nD τ).loc main_arg7))⟩, ⟨S512x2048, noisyWeight (m ((c : Thread nD τ).loc main_arg4)) (m ((c : Thread nD τ).loc main_arg8))⟩]
      concatenates_S512x2048_S512x2048_S1024x2048_d0 (ix2 (⟨512 + k.val, by have := k.isLt; omega⟩ : Fin 1024) j) = _
  exact concatenate_pair_apply_right (0 : Fin S1024x2048.rank) _ _ concatenates_S512x2048_S512x2048_S1024x2048_d0 _ rfl rfl (ix2 k j) (fun d hd => match d with
    | ⟨0, _⟩ => absurd rfl hd
    | ⟨1, _⟩ => rfl)
    (by show k.val + 512 = 512 + k.val; omega)

/-- The bias window's one row, entry by entry. -/
theorem bias_row (c : Dev nD) (j : Fin 2048) :
    V m c main_v25 (ix2 (0 : Fin 1) j) = biasSum (m ((c : Thread nD τ).loc main_arg5)) (m ((c : Thread nD τ).loc main_arg9)) (m ((c : Thread nD τ).loc main_arg6)) (m ((c : Thread nD τ).loc main_arg10)) (ix1 j) := by
  refine (congrFun (bias_entry m c) _).trans ?_
  exact shapeCast_a_1a_apply _ shapeCasts_S2048_S1x2048 (0 : Fin 1) j

end Cert.LstmKernel

end
-- ==== Proof.KernelBlocks.lean ====
/-
  From the blocks the kernel writes to the two result arrays.

  The grid has 16 points; point t handles rows 512·t … 512·t + 511 of x, h, the old cell state and both
  results, and sees the whole weight array and the whole bias row.  So entry (p, k) of x's block at t is
  entry (512·t + p, k) of x, the block's pre-activation at (p, j) is the array's pre-activation at
  (512·t + p, j), and what point t writes back is block t of one function of the argument arrays.  Every
  row r lies in the block of point r / 512, so the blocks cover both results.
-/
import proofs.«180121_j26714696581322_2_alg».proof.Proof.Gen.KernelIdeal.Frame
import proofs.«180121_j26714696581322_2_alg».proof.Proof.Spec
import proofs.«180121_j26714696581322_2_alg».proof.Proof.KernelPoint
import proofs.«180121_j26714696581322_2_alg».proof.Proof.KernelDot
import proofs.«180121_j26714696581322_2_alg».proof.Proof.KernelHost
import Idealize.ShloMosaic.Lib.Pipeline.Value

noncomputable section

namespace Cert.LstmKernel

open Cert.KernelIdeal Cert.KernelIdeal.Gen Cert.LstmSpec Idealize.ShloMosaic Idealize.ShloMosaic.TcCoe Idealize.SL.Sem
open Idealize.ShloMosaic.ValueIdx
open Idealize.ShloMosaic.Pipeline (Dat)

/-- The pre-activation of row r, column j, from the argument arrays: x's row times column j of W_ih, plus
    h's row times column j of W_hh, plus the summed bias at j. -/
def preAt (a0 a1 : (⟨S8192x512, .f32⟩ : BufTy).Contents (Elt Ideal)) (a3 a4 : (⟨S2048x512, .f32⟩ : BufTy).Contents (Elt Ideal))
    (a5 a6 : (⟨S2048, .f32⟩ : BufTy).Contents (Elt Ideal)) (a7 a8 : (⟨S512x2048, .f32⟩ : BufTy).Contents (Elt Ideal))
    (a9 a10 : (⟨S2048, .f32⟩ : BufTy).Contents (Elt Ideal)) (r : Fin 8192) (j : Fin 2048) : EReal :=
  (∑ k : Fin 512, a0 (ix2 r k) * noisyWeight a3 a7 (ix2 k j) + ∑ k : Fin 512, a1 (ix2 r k) * noisyWeight a4 a8 (ix2 k j))
    + biasSum a5 a9 a6 a10 (ix1 j)

/-- The array of pre-activations. -/
def preArr (a0 a1 : (⟨S8192x512, .f32⟩ : BufTy).Contents (Elt Ideal)) (a3 a4 : (⟨S2048x512, .f32⟩ : BufTy).Contents (Elt Ideal))
    (a5 a6 : (⟨S2048, .f32⟩ : BufTy).Contents (Elt Ideal)) (a7 a8 : (⟨S512x2048, .f32⟩ : BufTy).Contents (Elt Ideal))
    (a9 a10 : (⟨S2048, .f32⟩ : BufTy).Contents (Elt Ideal)) : (⟨2, ![8192, 2048]⟩ : Shape).Idx → EReal :=
  fun i => preAt a0 a1 a3 a4 a5 a6 a7 a8 a9 a10 (i 0) (i 1)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the row-blocked windows sit at block row t, the two whole windows at
    block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row p of point t's block is row 512·t + p of the array. -/
def brow (t : Fin cfg0.N) (p : Fin 512) : Fin 8192 :=
  ⟨t.val * 512 + p.val, by have ht : t.val < 16 := N_0 ▸ t.isLt; have := p.isLt; omega⟩

/-! ## The input blocks read off the arrays -/

theorem read_x (c : Dev nD) (t : Fin cfg0.N) (p k : Fin 512) :
    iblk m c 0 t (ix2 p k) = (m ((c : Thread nD τ).loc main_arg0)) (ix2 (brow t p) k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 512 + 1 * p.val = t.val * 512 + p.val; omega
  | ⟨1, _⟩ => show win0_0.index t (1 : Fin 2) * 512 + 1 * k.val = k.val; omega

theorem read_h (c : Dev nD) (t : Fin cfg0.N) (p k : Fin 512) :
    iblk m c 1 t (ix2 p k) = (m ((c : Thread nD τ).loc main_arg1)) (ix2 (brow t p) k) := by
  obtain ⟨-, -, e0, e1, -⟩ := idx_facts t
  show V m c main_arg1 (((cfg0.win 1).blk t).view.emb (ix2 p k)) = _
  rw [V_main_arg1]
  refine congrArg _ (funext fun a => Fin.ext ?_)
  match a with
  | ⟨0, _⟩ => show win0_1.index t (0 : Fin 2) * 512 + 1 * p.val = t.val * 512 + p.val; omega
  | ⟨1, _⟩ => show win0_1.index t (1 : Fin 2) * 512 + 1 * k.val = k.val; omega

theorem read_c (c : Dev nD) (t : Fin cfg0.N) (p k : Fin 512) :
    iblk m c 2 t (ix2 p k) = (m ((c : Thread nD τ).loc main_arg2)) (ix2 (brow t p) k) := by
  obtain ⟨-, -, -, -, e0, e1, -⟩ := idx_facts t
  show V m c main_arg2 (((cfg0.win 2).blk t).view.emb (ix2 p k)) = _
  rw [V_main_arg2]
  refine congrArg _ (funext fun a => Fin.ext ?_)
  match a with
  | ⟨0, _⟩ => show win0_2.index t (0 : Fin 2) * 512 + 1 * p.val = t.val * 512 + p.val; omega
  | ⟨1, _⟩ => show win0_2.index t (1 : Fin 2) * 512 + 1 * k.val = k.val; omega

theorem read_w (c : Dev nD) (t : Fin cfg0.N) (k : Fin 1024) (j : Fin 2048) :
    iblk m c 3 t (ix2 k j) = V m c main_v24 (ix2 k j) := by
  obtain ⟨-, -, -, -, -, -, e0, e1, -⟩ := idx_facts t
  show V m c main_v24 (((cfg0.win 3).blk t).view.emb (ix2 k j)) = _
  refine congrArg _ (funext fun a => Fin.ext ?_)
  match a with
  | ⟨0, _⟩ => show win0_3.index t (0 : Fin 2) * 1024 + 1 * k.val = k.val; omega
  | ⟨1, _⟩ => show win0_3.index t (1 : Fin 2) * 2048 + 1 * j.val = j.val; omega

theorem read_b (c : Dev nD) (t : Fin cfg0.N) (j : Fin 2048) :
    iblk m c 4 t (ix2 (0 : Fin 1) j) = V m c main_v25 (ix2 (0 : Fin 1) j) := by
  obtain ⟨-, -, -, -, -, -, -, -, e0, e1, -⟩ := idx_facts t
  show V m c main_v25 (((cfg0.win 4).blk t).view.emb (ix2 (0 : Fin 1) j)) = _
  refine congrArg _ (funext fun a => Fin.ext ?_)
  match a with
  | ⟨0, _⟩ => show win0_4.index t (0 : Fin 2) * 1 + 1 * 0 = 0; omega
  | ⟨1, _⟩ => show win0_4.index t (1 : Fin 2) * 2048 + 1 * j.val = j.val; omega

/-- THE BLOCK'S PRE-ACTIVATIONS are the array's, at the block's rows. -/
theorem pre_block (c : Dev nD) (t : Fin cfg0.N) (p : Fin 512) (j : Fin 2048) :
    k0_pay3 (F := Ideal) (iblk m c 0 t) (iblk m c 1 t) (iblk m c 3 t) (iblk m c 4 t) (ix2 p j) = preAt (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (brow t p) j := by
  refine (preact_at (iblk m c 0 t) (iblk m c 1 t) (iblk m c 3 t) (iblk m c 4 t) p j).trans ?_
  unfold preAt
  refine congrArg₂ (· + ·) (congrArg₂ (· + ·) (Finset.sum_congr rfl fun k _ => ?_) (Finset.sum_congr rfl fun k _ => ?_)) ?_
  · rw [read_x m c t p k, read_w m c t _ j, weights_upper m c k j]
  · rw [read_h m c t p k, read_w m c t _ j, weights_lower m c k j]
  · rw [read_b m c t j, bias_row m c j]

/-! ## What each point writes back -/

theorem emb_hid (t : Fin cfg0.N) (p q : Fin 512) :
    ((cfg0.win 5).blk t).view.emb (ix2 p q) = ix2 (brow t p) q := by
  obtain ⟨-, -, -, -, -, -, -, -, -, -, e0, e1, -⟩ := idx_facts t
  refine funext fun a => Fin.ext ?_
  match a with
  | ⟨0, _⟩ => show win0_5.index t (0 : Fin 2) * 512 + 1 * p.val = t.val * 512 + p.val; omega
  | ⟨1, _⟩ => show win0_5.index t (1 : Fin 2) * 512 + 1 * q.val = q.val; omega

theorem emb_cell (t : Fin cfg0.N) (p q : Fin 512) :
    ((cfg0.win 6).blk t).view.emb (ix2 p q) = ix2 (brow t p) q := by
  obtain ⟨-, -, -, -, -, -, -, -, -, -, -, -, e0, e1⟩ := idx_facts t
  refine funext fun a => Fin.ext ?_
  match a with
  | ⟨0, _⟩ => show win0_6.index t (0 : Fin 2) * 512 + 1 * p.val = t.val * 512 + p.val; omega
  | ⟨1, _⟩ => show win0_6.index t (1 : Fin 2) * 512 + 1 * q.val = q.val; omega

/-- Point t writes back block t of the hidden-state function of the argument arrays. -/
theorem flushed_hid (c : Dev nD) (t : Fin cfg0.N) :
    (dats m 0 c).flushed 5 t = ((cfg0.win 5).blk t).view.read (Elt Ideal) (hidArr (preArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg2))) := by
  show (cfg0.win 5).cut (grid0.coords t) ((dats m 0 c).after 5 t) = _
  rw [after0_5]
  unfold out0_5
  rw [View.canon_unit_zero hz]
  simp only [View.ld_unit_zero (S := S512x512) hz, View.ld_unit_zero (S := S1024x2048) hz, View.ld_unit_zero (S := S1x2048) hz]
  funext j
  obtain ⟨p, q, rfl⟩ : ∃ (p : Fin 512) (q : Fin 512), j = ix2 p q := ⟨j 0, j 1, eq_ix2 j⟩
  show k0_pay2 (F := Ideal) (k0_pay9 (k0_pay8 (iblk m c 0 t) (iblk m c 1 t) (iblk m c 3 t) (iblk m c 4 t)))
      (k0_pay10 (k0_pay5 (iblk m c 0 t) (iblk m c 1 t) (iblk m c 3 t) (iblk m c 4 t)) (k0_pay6 (iblk m c 0 t) (iblk m c 1 t) (iblk m c 3 t) (iblk m c 4 t)) (k0_pay7 (iblk m c 0 t) (iblk m c 1 t) (iblk m c 3 t) (iblk m c 4 t)) (iblk m c 2 t))
      (k0_pay11 (k0_pay5 (iblk m c 0 t) (iblk m c 1 t) (iblk m c 3 t) (iblk m c 4 t)) (k0_pay6 (iblk m c 0 t) (iblk m c 1 t) (iblk m c 3 t) (iblk m c 4 t)) (k0_pay7 (iblk m c 0 t) (iblk m c 1 t) (iblk m c 3 t) (iblk m c 4 t)) (iblk m c 2 t)) (ix2 p q)
    = hidArr (preArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg2)) (((cfg0.win 5).blk t).view.emb (ix2 p q))
  rw [emb_hid t p q]
  refine (hid_block_at (iblk m c 0 t) (iblk m c 1 t) (iblk m c 2 t) (iblk m c 3 t) (iblk m c 4 t) p q).trans ?_
  rw [pre_block m c t p _, pre_block m c t p _, pre_block m c t p _, pre_block m c t p _, read_c m c t p q]
  rfl

/-- Point t writes back block t of the cell-state function of the argument arrays. -/
theorem flushed_cell (c : Dev nD) (t : Fin cfg0.N) :
    (dats m 0 c).flushed 6 t = ((cfg0.win 6).blk t).view.read (Elt Ideal) (cellArr (preArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg2))) := by
  show (cfg0.win 6).cut (grid0.coords t) ((dats m 0 c).after 6 t) = _
  rw [after0_6]
  unfold out0_6
  rw [View.canon_unit_zero hz]
  simp only [View.ld_unit_zero (S := S512x512) hz, View.ld_unit_zero (S := S1024x2048) hz, View.ld_unit_zero (S := S1x2048) hz]
  funext j
  obtain ⟨p, q, rfl⟩ : ∃ (p : Fin 512) (q : Fin 512), j = ix2 p q := ⟨j 0, j 1, eq_ix2 j⟩
  show k0_pay1 (F := Ideal)
      (k0_pay10 (k0_pay5 (iblk m c 0 t) (iblk m c 1 t) (iblk m c 3 t) (iblk m c 4 t)) (k0_pay6 (iblk m c 0 t) (iblk m c 1 t) (iblk m c 3 t) (iblk m c 4 t)) (k0_pay7 (iblk m c 0 t) (iblk m c 1 t) (iblk m c 3 t) (iblk m c 4 t)) (iblk m c 2 t))
      (k0_pay11 (k0_pay5 (iblk m c 0 t) (iblk m c 1 t) (iblk m c 3 t) (iblk m c 4 t)) (k0_pay6 (iblk m c 0 t) (iblk m c 1 t) (iblk m c 3 t) (iblk m c 4 t)) (k0_pay7 (iblk m c 0 t) (iblk m c 1 t) (iblk m c 3 t) (iblk m c 4 t)) (iblk m c 2 t)) (ix2 p q)
    = cellArr (preArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg2)) (((cfg0.win 6).blk t).view.emb (ix2 p q))
  rw [emb_cell t p q]
  refine (cell_block_at (iblk m c 0 t) (iblk m c 1 t) (iblk m c 2 t) (iblk m c 3 t) (iblk m c 4 t) p q).trans ?_
  rw [pre_block m c t p _, pre_block m c t p _, pre_block m c t p _, read_c m c t p q]
  rfl

/-! ## The blocks cover the arrays -/

theorem mem_hid (t : Fin cfg0.N) (i : S8192x512.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v26_0).slice (win0_5.rect t)).set ↔ _
  rw [View.set_slice_whole, Rect.mem_set_unit]
  exact Iff.rfl

theorem mem_cell (t : Fin cfg0.N) (i : S8192x512.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v26_1).slice (win0_6.rect t)).set ↔ _
  rw [View.set_slice_whole, Rect.mem_set_unit]
  exact Iff.rfl

/-- Row r is in the block of point r / 512. -/
theorem point_of_row (i : S8192x512.Idx) : ∃ t : Fin cfg0.N, t.val = (i 0).val / 512 := by
  have hi0 : (i 0).val < 8192 := (i 0).isLt
  have hN : cfg0.N = 16 := N_0
  exact ⟨⟨(i 0).val / 512, by rw [hN]; omega⟩, rfl⟩

theorem cover_hid (i : S8192x512.Idx) : ∃ t : Fin cfg0.N, (cfg0.win 5).flush t = true ∧ i ∈ ((cfg0.win 5).blk t).view.set := by
  have hi0 : (i 0).val < 8192 := (i 0).isLt
  have hi1 : (i 1).val < 512 := (i 1).isLt
  obtain ⟨t, ht⟩ := point_of_row i
  obtain ⟨-, -, -, -, -, -, -, -, -, -, e0, e1, -⟩ := idx_facts t
  refine ⟨t, flush0_5 t, ?_⟩
  rw [mem_hid]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 512 ≤ (i 1).val ∧ (i 1).val < win0_5.index t (1 : Fin 2) * 512 + 512; omega

theorem cover_cell (i : S8192x512.Idx) : ∃ t : Fin cfg0.N, (cfg0.win 6).flush t = true ∧ i ∈ ((cfg0.win 6).blk t).view.set := by
  have hi0 : (i 0).val < 8192 := (i 0).isLt
  have hi1 : (i 1).val < 512 := (i 1).isLt
  obtain ⟨t, ht⟩ := point_of_row i
  obtain ⟨-, -, -, -, -, -, -, -, -, -, -, -, e0, e1⟩ := idx_facts t
  refine ⟨t, flush0_6 t, ?_⟩
  rw [mem_cell]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 512 ≤ (i 1).val ∧ (i 1).val < win0_6.index t (1 : Fin 2) * 512 + 512; omega

/-- The hidden-state array after the run. -/
theorem final_hid (c : Dev nD) : (dats m 0 c).arrAt 5 cfg0.N = hidArr (preArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg2)) :=
  (dats m 0 c).arrAt_eq_of_cover 5 (hidArr (preArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg2))) (fun t _ => flushed_hid m c t) cover_hid

/-- The cell-state array after the run. -/
theorem final_cell (c : Dev nD) : (dats m 0 c).arrAt 6 cfg0.N = cellArr (preArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg2)) :=
  (dats m 0 c).arrAt_eq_of_cover 6 (cellArr (preArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg2))) (fun t _ => flushed_cell m c t) cover_cell

/-! ## The kernel's run, read -/

/-- Every weakly fair execution of the kernel's program terminates with the two results at their functions of
    the argument arrays, and the argument arrays as launched. -/
theorem run : θ_run defs (onTc (τ := τ) (main (F := Ideal))) ⟨m, fun _ => 0, ρ⟩ fun r => ∀ c : Dev nD,
      r.2.mem ((c.tc : Thread nD τ).loc main_v26_0) = hidArr (preArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg2))
      ∧ r.2.mem ((c.tc : Thread nD τ).loc main_v26_1) = cellArr (preArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 5).trans (final_hid m c), ((h c).1 6).trans (final_cell m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.LstmKernel

end
-- ==== Proof.RefValue.lean ====
/-
  The reference's two results, entry by entry.

  The reference computes the pre-activations as one 8192 x 2048 array,
      (x · W_ih + b_ih) + h · W_hh + b_hh,
  cuts it into its four quarters of 512 columns, and applies to each entry the quantised sigmoid (spelt out
  as 1 / (1 + e^(-g))), the quantised tanh, and the cell and hidden updates.  Entry (r, c) of a result
  therefore depends on the pre-activations (r, c), (r, 512 + c), (r, 1024 + c), (r, 1536 + c) and on the old
  cell state at (r, c), through the same two functions as in the kernel.
-/
import proofs.«180121_j26714696581322_2_alg».proof.Proof.RefReadP
import proofs.«180121_j26714696581322_2_alg».proof.Proof.Spec

noncomputable section

namespace Cert.LstmRef

open Cert.ReferenceIdeal Cert.ReferenceIdeal.ReadP Cert.LstmSpec Idealize.ShloMosaic Idealize.ShloMosaic.ValueIdx

variable (x0 x1 x2 : (⟨S8192x512, .f32⟩ : BufTy).Contents (Elt Ideal)) (x3 x4 : (⟨S2048x512, .f32⟩ : BufTy).Contents (Elt Ideal))
  (x5 x6 : (⟨S2048, .f32⟩ : BufTy).Contents (Elt Ideal)) (x7 x8 : (⟨S512x2048, .f32⟩ : BufTy).Contents (Elt Ideal))
  (x9 x10 : (⟨S2048, .f32⟩ : BufTy).Contents (Elt Ideal))

/-! ## The four quarters' columns -/

theorem q_in (i : S8192x512.Idx) : idx_main_v31 i = quarter0 i :=
  funext fun a => Fin.ext (by
    match a with
    | ⟨0, _⟩ => rfl
    | ⟨1, _⟩ => rfl)

theorem q_fg (i : S8192x512.Idx) : idx_main_v32 i = quarter 512 (by norm_num) i :=
  funext fun a => Fin.ext (by
    match a with
    | ⟨0, _⟩ => rfl
    | ⟨1, _⟩ => rfl)

theorem q_cd (i : S8192x512.Idx) : idx_main_v33 i = quarter 1024 (by norm_num) i :=
  funext fun a => Fin.ext (by
    match a with
    | ⟨0, _⟩ => rfl
    | ⟨1, _⟩ => rfl)

theorem q_out (i : S8192x512.Idx) : idx_main_v34 i = quarter 1536 (by norm_num) i :=
  funext fun a => Fin.ext (by
    match a with
    | ⟨0, _⟩ => rfl
    | ⟨1, _⟩ => rfl)

/-! ## The gates and the candidate -/

/-- The input gate. -/
theorem gate_in (i : S8192x512.Idx) : val_main_v48 (F := Ideal) x0 x1 x3 x4 x5 x6 x7 x8 x9 x10 i = gate ((val_main_v30 (F := Ideal) x0 x1 x3 x4 x5 x6 x7 x8 x9 x10) (quarter0 i)) := by
  show quantU (Ideal.div (Ideal.ofBits .f32 0x3F800000#32) (Ideal.ofBits .f32 0x3F800000#32 + Ideal.exp (-(val_main_v31 (F := Ideal) x0 x1 x3 x4 x5 x6 x7 x8 x9 x10 i)))) = _
  rw [logistic_spelt, val_main_v31_apply, q_in]
  rfl

/-- The forget gate. -/
theorem gate_fg (i : S8192x512.Idx) : val_main_v62 (F := Ideal) x0 x1 x3 x4 x5 x6 x7 x8 x9 x10 i = gate ((val_main_v30 (F := Ideal) x0 x1 x3 x4 x5 x6 x7 x8 x9 x10) (quarter 512 (by norm_num) i)) := by
  show quantU (Ideal.div (Ideal.ofBits .f32 0x3F800000#32) (Ideal.ofBits .f32 0x3F800000#32 + Ideal.exp (-(val_main_v32 (F := Ideal) x0 x1 x3 x4 x5 x6 x7 x8 x9 x10 i)))) = _
  rw [logistic_spelt, val_main_v32_apply, q_fg]
  rfl

/-- The candidate cell value. -/
theorem cand_cd (i : S8192x512.Idx) : val_main_v71 (F := Ideal) x0 x1 x3 x4 x5 x6 x7 x8 x9 x10 i = cand ((val_main_v30 (F := Ideal) x0 x1 x3 x4 x5 x6 x7 x8 x9 x10) (quarter 1024 (by norm_num) i)) := by
  show quantS (Ideal.tanh (val_main_v33 (F := Ideal) x0 x1 x3 x4 x5 x6 x7 x8 x9 x10 i)) = _
  rw [val_main_v33_apply, q_cd]
  rfl

/-- The output gate. -/
theorem gate_out (i : S8192x512.Idx) : val_main_v85 (F := Ideal) x0 x1 x3 x4 x5 x6 x7 x8 x9 x10 i = gate ((val_main_v30 (F := Ideal) x0 x1 x3 x4 x5 x6 x7 x8 x9 x10) (quarter 1536 (by norm_num) i)) := by
  show quantU (Ideal.div (Ideal.ofBits .f32 0x3F800000#32) (Ideal.ofBits .f32 0x3F800000#32 + Ideal.exp (-(val_main_v34 (F := Ideal) x0 x1 x3 x4 x5 x6 x7 x8 x9 x10 i)))) = _
  rw [logistic_spelt, val_main_v34_apply, q_out]
  rfl

/-! ## The two results -/

/-- The new cell state is the cell function of the pre-activations and the old cell state. -/
theorem cell_eq : val_main_v114 (F := Ideal) x0 x1 x2 x3 x4 x5 x6 x7 x8 x9 x10 = cellArr (val_main_v30 (F := Ideal) x0 x1 x3 x4 x5 x6 x7 x8 x9 x10) x2 := by
  funext i
  show quantS (Ideal.div (quantS (val_main_v62 (F := Ideal) x0 x1 x3 x4 x5 x6 x7 x8 x9 x10 i * x2 i) + quantS (val_main_v48 (F := Ideal) x0 x1 x3 x4 x5 x6 x7 x8 x9 x10 i * val_main_v71 (F := Ideal) x0 x1 x3 x4 x5 x6 x7 x8 x9 x10 i)) (Ideal.ofBits .f32 0x40000000#32)) = _
  rw [gate_fg, gate_in, cand_cd]
  rfl

/-- The new hidden state is the hidden function of the pre-activations and the old cell state. -/
theorem hid_eq : val_main_v134 (F := Ideal) x0 x1 x2 x3 x4 x5 x6 x7 x8 x9 x10 = hidArr (val_main_v30 (F := Ideal) x0 x1 x3 x4 x5 x6 x7 x8 x9 x10) x2 := by
  funext i
  show quantS (val_main_v85 (F := Ideal) x0 x1 x3 x4 x5 x6 x7 x8 x9 x10 i * quantS (Ideal.tanh (val_main_v114 (F := Ideal) x0 x1 x2 x3 x4 x5 x6 x7 x8 x9 x10 i * Ideal.ofBits .f32 0x40000000#32))) = _
  rw [gate_out, cell_eq]
  rfl

/-! ## The pre-activations -/

/-- Entry (r, j) of the reference's pre-activations: x's row times column j of W_ih, plus the first bias,
    plus h's row times column j of W_hh, plus the second bias. -/
theorem pre_ref (r : Fin 8192) (j : Fin 2048) :
    val_main_v30 (F := Ideal) x0 x1 x3 x4 x5 x6 x7 x8 x9 x10 (ix2 r j)
      = ((∑ k : Fin 512, x0 (ix2 r k) * val_main_v5 (F := Ideal) x3 x7 (ix2 k j) + val_main_v16 (F := Ideal) x5 x9 (ix1 j))
          + ∑ k : Fin 512, x1 (ix2 r k) * val_main_v11 (F := Ideal) x4 x8 (ix2 k j)) + val_main_v21 (F := Ideal) x6 x10 (ix1 j) := by
  rw [val_main_v30_apply, val_main_v27_apply, val_main_v25_apply, val_main_v22_apply, val_main_v26_apply,
    val_main_v24_apply, val_main_v23_apply, val_main_v29_apply, val_main_v28_apply]
  have el (k : Fin 512) : lidx_main_v22 (ix2 r j) k = ix2 r k := funext fun a => by
    match a with
    | ⟨0, _⟩ => rfl
    | ⟨1, _⟩ => rfl
  have er (k : Fin 512) : ridx_main_v22 (ix2 r j) k = ix2 k j := funext fun a => by
    match a with
    | ⟨0, _⟩ => rfl
    | ⟨1, _⟩ => rfl
  have el' (k : Fin 512) : lidx_main_v26 (ix2 r j) k = ix2 r k := funext fun a => by
    match a with
    | ⟨0, _⟩ => rfl
    | ⟨1, _⟩ => rfl
  have er' (k : Fin 512) : ridx_main_v26 (ix2 r j) k = ix2 k j := funext fun a => by
    match a with
    | ⟨0, _⟩ => rfl
    | ⟨1, _⟩ => rfl
  have eb : idx_main_v23 (idx_main_v24 (ix2 r j)) = ix1 j := funext fun a => by
    match a with
    | ⟨0, _⟩ => rfl
  have eb' : idx_main_v28 (idx_main_v29 (ix2 r j)) = ix1 j := funext fun a => by
    match a with
    | ⟨0, _⟩ => rfl
  simp only [el, er, el', er', eb, eb']
  rfl

end Cert.LstmRef

end
-- ==== Proof.Bridge.lean ====
/-
  The two programs compute the same pre-activations.

  The kernel's side is  (x·W_ih + h·W_hh) + (((b_ih + n_ih) + b_hh) + n_hh)  — one long product and the biases
  summed beforehand —, the reference's is  ((x·W_ih + (b_ih + n_ih)) + h·W_hh) + (b_hh + n_hh).  The noisy
  weights and the noise terms are the same functions of the arguments on both sides (the same host
  operations, never opened), so the two differ only by the order of additions of extended reals.
-/
import proofs.«180121_j26714696581322_2_alg».proof.Proof.KernelBlocks
import proofs.«180121_j26714696581322_2_alg».proof.Proof.RefValue

noncomputable section

namespace Cert.LstmBridge

open Cert.LstmSpec Cert.LstmKernel Idealize.ShloMosaic Idealize.ShloMosaic.ValueIdx
open Cert.ReferenceIdeal.ReadP (val_main_v5 val_main_v11 val_main_v16 val_main_v20 val_main_v21 val_main_v30)

variable (a0 a1 : (⟨Cert.KernelIdeal.S8192x512, .f32⟩ : BufTy).Contents (Elt Ideal))
  (a3 a4 : (⟨Cert.KernelIdeal.S2048x512, .f32⟩ : BufTy).Contents (Elt Ideal))
  (a5 a6 : (⟨Cert.KernelIdeal.S2048, .f32⟩ : BufTy).Contents (Elt Ideal))
  (a7 a8 : (⟨Cert.KernelIdeal.S512x2048, .f32⟩ : BufTy).Contents (Elt Ideal))
  (a9 a10 : (⟨Cert.KernelIdeal.S2048, .f32⟩ : BufTy).Contents (Elt Ideal))

/-- The noisy weight is the same function of its two arguments in both programs. -/
theorem weight_ih : noisyWeight a3 a7 = val_main_v5 (F := Ideal) a3 a7 := rfl
theorem weight_hh : noisyWeight a4 a8 = val_main_v11 (F := Ideal) a4 a8 := rfl

/-- The reference's two biases, entry by entry. -/
theorem bias_ih (i : Cert.KernelIdeal.S2048.Idx) : val_main_v16 (F := Ideal) a5 a9 i = a5 i + biasNoise a5 a9 i := rfl
theorem bias_hh (i : Cert.KernelIdeal.S2048.Idx) : val_main_v21 (F := Ideal) a6 a10 i = a6 i + biasNoise a6 a10 i := rfl

/-- THE PRE-ACTIVATIONS AGREE, as whole arrays. -/
theorem pre_eq : preArr a0 a1 a3 a4 a5 a6 a7 a8 a9 a10 = val_main_v30 (F := Ideal) a0 a1 a3 a4 a5 a6 a7 a8 a9 a10 := by
  funext i
  obtain ⟨r, j, rfl⟩ : ∃ (r : Fin 8192) (j : Fin 2048), i = ix2 r j := ⟨i 0, i 1, eq_ix2 i⟩
  rw [Cert.LstmRef.pre_ref]
  show (∑ k : Fin 512, a0 (ix2 r k) * noisyWeight a3 a7 (ix2 k j) + ∑ k : Fin 512, a1 (ix2 r k) * noisyWeight a4 a8 (ix2 k j))
      + biasSum a5 a9 a6 a10 (ix1 j) = _
  rw [weight_ih, weight_hh, biasSum_apply, bias_ih, bias_hh]
  exact gates_assoc _ _ _ _ _

end Cert.LstmBridge

end
-- ==== Proof.RefRun.lean ====
/-
  The reference's run, read back.

  The reference is a straight line of 232 host operations.  Every weakly fair execution of it terminates;
  afterwards each buffer holds what the operations, folded over the launch contents, leave there.  For the two
  results that fold is the last stage of the chain of per-operation stages (each stage a function of the
  stages before it, so that the sharing of the program's values is kept), and the argument arrays are as
  launched since no operation writes them.
-/
import proofs.«180121_j26714696581322_2_alg».proof.Proof.RefReadP
import Idealize.ShloMosaic.Lib.StableHlo.Run

noncomputable section

namespace Cert.LstmRef

open Cert.ReferenceIdeal Cert.ReferenceIdeal.Gen Cert.ReferenceIdeal.OpsP Cert.ReferenceIdeal.ReadP
open Idealize.ShloMosaic Idealize.ShloMosaic.TcCoe Idealize.SL.Sem Idealize.ShloMosaic.StableHlo

set_option maxHeartbeats 92800000 in
/-- On every device, from any memory with zero counters: every weakly fair execution of the reference
    terminates with the new hidden state and the new cell state at their last stages, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v134) = val_main_v134 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v114) = val_main_v114 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v134).trans (by after_results_simp <;> rfl),
      (h c main_v114).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl)⟩)
    (run_seq scopedRefs_eq scopedSems_eq defs main (fun _ => ops) main_eq (fun _ => ops_sub) m ρ)

end Cert.LstmRef

end
-- ==== Proof.lean ====
/-
  One step of a quantised LSTM cell on 8192 rows: a Pallas kernel against its jnp reference, equal as
  extended reals.

  Both programs compute, for every row, the four gate pre-activations  x·W_ih + b_ih + h·W_hh + b_hh  with
  noisy weights and biases built by the same host operations, and push every entry through the same
  straight-through quantised sigmoid / tanh / cell update / hidden update.  The kernel works on 16 blocks of
  512 rows, multiplies the concatenated row [x | h] by the stacked weights in one product and adds the
  biases summed beforehand; the reference multiplies twice and adds the biases in between.  The two agree
  because a sum over 1024 indices is the sum over its two halves and addition of extended reals is
  commutative and associative; no finiteness of the inputs is used.

  The modules: Spec (the entry-wise functions and the two laws), KernelPoint / KernelDot (the kernel body at
  an entry), KernelHost (the weights and bias the kernel is handed), KernelBlocks (from the blocks to the
  arrays, and the kernel's run), RefRun (the reference's run over its stages), RefValue (the reference at an
  entry), Bridge (the pre-activations agree).  RefOpsP and RefReadP are copies of two generated modules.
-/
import proofs.«180121_j26714696581322_2_alg».proof.Defs
import proofs.«180121_j26714696581322_2_alg».proof.Proof.Gen.Kernel
import proofs.«180121_j26714696581322_2_alg».proof.Proof.Gen.Kernel.Skeleton
import proofs.«180121_j26714696581322_2_alg».proof.Proof.Gen.Kernel.Launch
import proofs.«180121_j26714696581322_2_alg».proof.Proof.Gen.Kernel.Points
import proofs.«180121_j26714696581322_2_alg».proof.Proof.Gen.Kernel.Frame
import proofs.«180121_j26714696581322_2_alg».proof.Proof.Gen.KernelIdeal
import proofs.«180121_j26714696581322_2_alg».proof.Proof.Gen.KernelIdeal.Skeleton
import proofs.«180121_j26714696581322_2_alg».proof.Proof.Gen.KernelIdeal.Launch
import proofs.«180121_j26714696581322_2_alg».proof.Proof.Gen.KernelIdeal.Points
import proofs.«180121_j26714696581322_2_alg».proof.Proof.Gen.KernelIdeal.Frame
import proofs.«180121_j26714696581322_2_alg».proof.Proof.Gen.ReferenceIdeal
import proofs.«180121_j26714696581322_2_alg».proof.Proof.Gen.Pre_finite_inputs
import proofs.«180121_j26714696581322_2_alg».proof.Proof.Bridge
import proofs.«180121_j26714696581322_2_alg».proof.Proof.RefRun
import Idealize.ShloMosaic.Adequacy
import Idealize.ShloMosaic.Init

noncomputable section

namespace Cert.Proof

open Idealize.ShloMosaic Idealize.SL.Sem Cert.LstmSpec

/-- The kernel as printed runs, nothing faults, and its arguments end unchanged. -/
theorem frame_kernel : Cert.frame_Kernel :=
  fun m ρ _ => Cert.Kernel.Gen.frame m ρ

/-- So does the idealized kernel. -/
theorem frame_kernelIdeal : Cert.frame_KernelIdeal :=
  fun m ρ _ => Cert.KernelIdeal.Gen.frame m ρ

/-- The reference's frame is its run with the two results dropped. -/
theorem frame_reference : Cert.frame_ReferenceIdeal :=
  fun m ρ _ => (θ_run Cert.ReferenceIdeal.defs _ _).mono (fun _ h c => (h c).2.2) (Cert.LstmRef.run m ρ)

/-- Both programs end with the hidden state and the cell state at the same functions of the arguments: the
    kernel's run names them over its own pre-activation array, the reference's over its own, and the two
    arrays of pre-activations are one. -/
theorem algebraic : Cert.algebraic_KernelIdeal_ReferenceIdeal := by
  intro m ρ m' ρ' _ hagree
  refine ⟨fun c => hidArr (Cert.LstmKernel.preArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (m ((c.tc : Thread Cert.KernelIdeal.nD Cert.KernelIdeal.τ).loc Cert.KernelIdeal.main_arg2)), fun c => cellArr (Cert.LstmKernel.preArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (m ((c.tc : Thread Cert.KernelIdeal.nD Cert.KernelIdeal.τ).loc Cert.KernelIdeal.main_arg2)), Cert.LstmKernel.run m ρ, ?_⟩
  refine (θ_run Cert.ReferenceIdeal.defs _ _).mono (fun _ h c => ⟨?_, ?_, (h c).2.2⟩)
    (Cert.LstmRef.run m' ρ')
  · rw [(h c).1, Cert.LstmRef.hid_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2, ← Cert.LstmBridge.pre_eq]
  · rw [(h c).2.1, Cert.LstmRef.cell_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2, ← Cert.LstmBridge.pre_eq]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
